-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v71)) (v1 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_v72) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x200 : Shape := ⟨2, ![50000, 200]⟩
abbrev S200x200 : Shape := ⟨2, ![200, 200]⟩
abbrev S200 : Shape := ⟨1, ![200]⟩
abbrev S2x800000 : Shape := ⟨2, ![2, 800000]⟩
abbrev S800000x1 : Shape := ⟨2, ![800000, 1]⟩
abbrev S_ : Shape := ⟨0, ![]⟩

class Facts : Prop where
  bcast_S_S50000x200 : S_.BroadcastsInDim S50000x200 (![] : Fin 0 → Fin S50000x200.rank)
  reducesTo_S50000x200_S_d0_1 : S50000x200.ReducesTo [0, 1] S_
  h_S_ : 0 < S_.numel
  bcast_S_S200x200 : S_.BroadcastsInDim S200x200 (![] : Fin 0 → Fin S200x200.rank)
  reducesTo_S200x200_S_d0_1 : S200x200.ReducesTo [0, 1] S_
  bcast_S_S200 : S_.BroadcastsInDim S200 (![] : Fin 0 → Fin S200.rank)
  reducesTo_S200_S_d0 : S200.ReducesTo [0] S_
  bcast_S_S800000x1 : S_.BroadcastsInDim S800000x1 (![] : Fin 0 → Fin S800000x1.rank)
  reducesTo_S800000x1_S_d0_1 : S800000x1.ReducesTo [0, 1] S_

variable [Facts]

def fn_part1 {F : FTy → Type} [FloatOps F] (main_arg6 : FVec F S800000x1 .f32) (main_arg7 : FVec F S800000x1 .f32) (main_v13 : IVec S_ 1) (main_v16 : IVec S200 1) : IVec S_ 1 :=
  let main_c_5 : IVec S_ 1 := constantI S_ 1 1#1
  let main_v17 : IVec S_ 1 := (fun x v => Host.reduce IntOp.andi x v reducesTo_S200_S_d0 h_S_) main_v16 main_c_5
  let main_v18 : IVec S_ 1 := andi main_v13 main_v17
  let main_v19 : FVec F S800000x1 .f32 := Host.absf main_arg6
  let main_cst_6 : FVec F S_ .f32 := constant S_ .f32 0x7F800000#32
  let main_v20 : FVec F S800000x1 .f32 := broadcastInDim S800000x1 ![] bcast_S_S800000x1 main_cst_6
  let main_v21 : IVec S800000x1 1 := cmpf .olt main_v19 main_v20
  let main_c_7 : IVec S_ 1 := constantI S_ 1 1#1
  let main_v22 : IVec S_ 1 := (fun x v => Host.reduce IntOp.andi x v reducesTo_S800000x1_S_d0_1 h_S_) main_v21 main_c_7
  let main_v23 : IVec S_ 1 := andi main_v18 main_v22
  let main_v24 : FVec F S800000x1 .f32 := Host.absf main_arg7
  let main_cst_8 : FVec F S_ .f32 := constant S_ .f32 0x7F800000#32
  let main_v25 : FVec F S800000x1 .f32 := broadcastInDim S800000x1 ![] bcast_S_S800000x1 main_cst_8
  let main_v26 : IVec S800000x1 1 := cmpf .olt main_v24 main_v25
  let main_c_9 : IVec S_ 1 := constantI S_ 1 1#1
  let main_v27 : IVec S_ 1 := (fun x v => Host.reduce IntOp.andi x v reducesTo_S800000x1_S_d0_1 h_S_) main_v26 main_c_9
  let main_v28 : IVec S_ 1 := andi main_v23 main_v27
  main_v28

def fn {F : FTy → Type} [FloatOps F] (main_arg0 : FVec F S50000x200 .f32) (main_arg1 : FVec F S50000x200 .f32) (main_arg2 : FVec F S200x200 .f32) (main_arg3 : FVec F S200 .f32) (main_arg4 : IVec S2x800000 32) (main_arg5 : IVec S2x800000 32) (main_arg6 : FVec F S800000x1 .f32) (main_arg7 : FVec F S800000x1 .f32) : IVec S_ 1 :=
  let main_v0 : FVec F S50000x200 .f32 := Host.absf main_arg0
  let main_cst : FVec F S_ .f32 := constant S_ .f32 0x7F800000#32
  let main_v1 : FVec F S50000x200 .f32 := broadcastInDim S50000x200 ![] bcast_S_S50000x200 main_cst
  let main_v2 : IVec S50000x200 1 := cmpf .olt main_v0 main_v1
  let main_c : IVec S_ 1 := constantI S_ 1 1#1
  let main_v3 : IVec S_ 1 := (fun x v => Host.reduce IntOp.andi x v reducesTo_S50000x200_S_d0_1 h_S_) main_v2 main_c
  let main_v4 : FVec F S50000x200 .f32 := Host.absf main_arg1
  let main_cst_0 : FVec F S_ .f32 := constant S_ .f32 0x7F800000#32
  let main_v5 : FVec F S50000x200 .f32 := broadcastInDim S50000x200 ![] bcast_S_S50000x200 main_cst_0
  let main_v6 : IVec S50000x200 1 := cmpf .olt main_v4 main_v5
  let main_c_1 : IVec S_ 1 := constantI S_ 1 1#1
  let main_v7 : IVec S_ 1 := (fun x v => Host.reduce IntOp.andi x v reducesTo_S50000x200_S_d0_1 h_S_) main_v6 main_c_1
  let main_v8 : IVec S_ 1 := andi main_v3 main_v7
  let main_v9 : FVec F S200x200 .f32 := Host.absf main_arg2
  let main_cst_2 : FVec F S_ .f32 := constant S_ .f32 0x7F800000#32
  let main_v10 : FVec F S200x200 .f32 := broadcastInDim S200x200 ![] bcast_S_S200x200 main_cst_2
  let main_v11 : IVec S200x200 1 := cmpf .olt main_v9 main_v10
  let main_c_3 : IVec S_ 1 := constantI S_ 1 1#1
  let main_v12 : IVec S_ 1 := (fun x v => Host.reduce IntOp.andi x v reducesTo_S200x200_S_d0_1 h_S_) main_v11 main_c_3
  let main_v13 : IVec S_ 1 := andi main_v8 main_v12
  let main_v14 : FVec F S200 .f32 := Host.absf main_arg3
  let main_cst_4 : FVec F S_ .f32 := constant S_ .f32 0x7F800000#32
  let main_v15 : FVec F S200 .f32 := broadcastInDim S200 ![] bcast_S_S200 main_cst_4
  let main_v16 : IVec S200 1 := cmpf .olt main_v14 main_v15
  fn_part1 (F := F) main_arg6 main_arg7 main_v13 main_v16
-- ==== Kernel.lean ====
abbrev S50000x200 : Shape := ⟨2, ![50000, 200]⟩
abbrev S200x200 : Shape := ⟨2, ![200, 200]⟩
abbrev S200 : Shape := ⟨1, ![200]⟩
abbrev S2x800000 : Shape := ⟨2, ![2, 800000]⟩
abbrev S800000x1 : Shape := ⟨2, ![800000, 1]⟩
abbrev S1x800000 : Shape := ⟨2, ![1, 800000]⟩
abbrev S800000 : Shape := ⟨1, ![800000]⟩
abbrev S100000x200 : Shape := ⟨2, ![100000, 200]⟩
abbrev S5000x200 : Shape := ⟨2, ![5000, 200]⟩
abbrev S5000 : Shape := ⟨1, ![5000]⟩
abbrev S5000x1 : Shape := ⟨2, ![5000, 1]⟩
abbrev S_ : Shape := ⟨0, ![]⟩
abbrev S800000x200 : Shape := ⟨2, ![800000, 200]⟩
abbrev S1x200 : Shape := ⟨2, ![1, 200]⟩

abbrev nBuf : Space → Nat
  | .hbm => 93
  | .vmem => 16
  | .smem => 0
  | _ => 0

abbrev bufTy : (tb : Table) → Fin (tcTables nBuf tb) → BufTy
  | .hbm, ⟨0, _⟩ => ⟨S50000x200, .f32⟩
  | .hbm, ⟨1, _⟩ => ⟨S50000x200, .f32⟩
  | .hbm, ⟨2, _⟩ => ⟨S200x200, .f32⟩
  | .hbm, ⟨3, _⟩ => ⟨S200, .f32⟩
  | .hbm, ⟨4, _⟩ => ⟨S2x800000, .i32⟩
  | .hbm, ⟨5, _⟩ => ⟨S2x800000, .i32⟩
  | .hbm, ⟨6, _⟩ => ⟨S800000x1, .f32⟩
  | .hbm, ⟨7, _⟩ => ⟨S800000x1, .f32⟩
  | .hbm, ⟨8, _⟩ => ⟨S200x200, .bf16⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S100000x200, .f32⟩
  | .hbm, ⟨18, _⟩ => ⟨S100000x200, .bf16⟩
  | .hbm, ⟨19, _⟩ => ⟨S50000x200, .bf16⟩
  | .hbm, ⟨20, _⟩ => ⟨S50000x200, .bf16⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x200, .bf16⟩
  | .hbm, ⟨30, _⟩ => ⟨S800000x200, .f32⟩
  | .hbm, ⟨31, _⟩ => ⟨S800000x200, .f32⟩
  | .hbm, ⟨32, _⟩ => ⟨S800000x200, .f32⟩
  | .hbm, ⟨33, _⟩ => ⟨S_, .f32⟩
  | .hbm, ⟨34, _⟩ => ⟨S50000x200, .f32⟩
  | .hbm, ⟨35, _⟩ => ⟨S800000x1, .i32⟩
  | .hbm, ⟨36, _⟩ => ⟨S50000x200, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x200, .bf16⟩
  | .hbm, ⟨46, _⟩ => ⟨S800000x200, .f32⟩
  | .hbm, ⟨47, _⟩ => ⟨S800000x200, .f32⟩
  | .hbm, ⟨48, _⟩ => ⟨S800000x200, .f32⟩
  | .hbm, ⟨49, _⟩ => ⟨S_, .f32⟩
  | .hbm, ⟨50, _⟩ => ⟨S50000x200, .f32⟩
  | .hbm, ⟨51, _⟩ => ⟨S800000x1, .i32⟩
  | .hbm, ⟨52, _⟩ => ⟨S50000x200, .f32⟩
  | .hbm, ⟨53, _⟩ => ⟨S100000x200, .f32⟩
  | .hbm, ⟨54, _⟩ => ⟨S100000x200, .bf16⟩
  | .hbm, ⟨55, _⟩ => ⟨S50000x200, .bf16⟩
  | .hbm, ⟨56, _⟩ => ⟨S50000x200, .bf16⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x200, .bf16⟩
  | .hbm, ⟨66, _⟩ => ⟨S800000x200, .f32⟩
  | .hbm, ⟨67, _⟩ => ⟨S800000x200, .f32⟩
  | .hbm, ⟨68, _⟩ => ⟨S800000x200, .f32⟩
  | .hbm, ⟨69, _⟩ => ⟨S_, .f32⟩
  | .hbm, ⟨70, _⟩ => ⟨S50000x200, .f32⟩
  | .hbm, ⟨71, _⟩ => ⟨S800000x1, .i32⟩
  | .hbm, ⟨72, _⟩ => ⟨S50000x200, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x200, .bf16⟩
  | .hbm, ⟨82, _⟩ => ⟨S800000x200, .f32⟩
  | .hbm, ⟨83, _⟩ => ⟨S800000x200, .f32⟩
  | .hbm, ⟨84, _⟩ => ⟨S800000x200, .f32⟩
  | .hbm, ⟨85, _⟩ => ⟨S_, .f32⟩
  | .hbm, ⟨86, _⟩ => ⟨S50000x200, .f32⟩
  | .hbm, ⟨87, _⟩ => ⟨S800000x1, .i32⟩
  | .hbm, ⟨88, _⟩ => ⟨S50000x200, .f32⟩
  | .hbm, ⟨89, _⟩ => ⟨S100000x200, .f32⟩
  | .hbm, ⟨90, _⟩ => ⟨S100000x200, .f32⟩
  | .hbm, ⟨91, _⟩ => ⟨S50000x200, .f32⟩
  | .hbm, ⟨92, _⟩ => ⟨S50000x200, .f32⟩
  | .local _ .vmem, ⟨0, _⟩ => ⟨S5000x200, .f32⟩
  | .local _ .vmem, ⟨1, _⟩ => ⟨S5000x200, .f32⟩
  | .local _ .vmem, ⟨2, _⟩ => ⟨S5000x200, .bf16⟩
  | .local _ .vmem, ⟨3, _⟩ => ⟨S5000x200, .bf16⟩
  | .local _ .vmem, ⟨4, _⟩ => ⟨S5000x200, .f32⟩
  | .local _ .vmem, ⟨5, _⟩ => ⟨S5000x200, .f32⟩
  | .local _ .vmem, ⟨6, _⟩ => ⟨S200x200, .bf16⟩
  | .local _ .vmem, ⟨7, _⟩ => ⟨S200, .f32⟩
  | .local _ .vmem, ⟨8, _⟩ => ⟨S5000x200, .bf16⟩
  | .local _ .vmem, ⟨9, _⟩ => ⟨S5000x200, .bf16⟩
  | .local _ .vmem, ⟨10, _⟩ => ⟨S5000x200, .f32⟩
  | .local _ .vmem, ⟨11, _⟩ => ⟨S5000x200, .f32⟩
  | .local _ .vmem, ⟨12, _⟩ => ⟨S200x200, .bf16⟩
  | .local _ .vmem, ⟨13, _⟩ => ⟨S200, .f32⟩
  | .local _ .vmem, ⟨14, _⟩ => ⟨S5000x200, .f32⟩
  | .local _ .vmem, ⟨15, _⟩ => ⟨S5000x200, .f32⟩
  | _, _ => ⟨S50000x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_1 : Ref sig .tc := ⟨.hbm, 37, rfl⟩
abbrev main_v26 : Ref sig .tc := ⟨.hbm, 38, rfl⟩
abbrev main_v27 : Ref sig .tc := ⟨.hbm, 39, rfl⟩
abbrev main_c_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_4 : Ref sig .tc := ⟨.hbm, 57, rfl⟩
abbrev main_v43 : Ref sig .tc := ⟨.hbm, 58, rfl⟩
abbrev main_v44 : Ref sig .tc := ⟨.hbm, 59, rfl⟩
abbrev main_c_5 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_7 : Ref sig .tc := ⟨.hbm, 73, rfl⟩
abbrev main_v56 : Ref sig .tc := ⟨.hbm, 74, rfl⟩
abbrev main_v57 : Ref sig .tc := ⟨.hbm, 75, rfl⟩
abbrev main_c_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_9 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S200x200 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S200 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x200 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x200 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S200x200 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S200 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x200 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S50000x200_S50000x200_S100000x200_d0 : Shape.Concatenates [S50000x200, S50000x200] S100000x200 0
  inb_S5000x200_S5000x200_0_0 : ∀ a, (![0, 0] : Fin 2 → Nat) a + S5000x200.size a ≤ S5000x200.size a
  h_S5000x200 : 0 < S5000x200.numel
  shapeCasts_S5000x200_S5000x200 : S5000x200.ShapeCasts S5000x200
  reduces_S5000x200_S5000 : S5000x200.Reduces [1] S5000
  shapeCasts_S5000_S5000x1 : S5000.ShapeCasts S5000x1
  broadcasts_S5000x1_S5000x200 : S5000x1.Broadcasts S5000x200
  packedbf16_S5000x200_S5000x200_0_0 : (Rect.unit (s := S5000x200) ![0, 0] S5000x200.size inb_S5000x200_S5000x200_0_0).PackedRows (EltTy.packing .bf16)
  slices_S100000x200_S50000x200_0_0 : S100000x200.Slices ![0, 0] S50000x200
  slices_S100000x200_S50000x200_50000_0 : S100000x200.Slices ![50000, 0] S50000x200
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x200_0_1 : S800000x1.BroadcastsInDim S800000x200 (![0, 1] : Fin 2 → Fin S800000x200.rank)
  bcast_S_S50000x200 : S_.BroadcastsInDim S50000x200 (![] : Fin 0 → Fin S50000x200.rank)
  inb_S200x200_S200x200_0_0 : ∀ a, (![0, 0] : Fin 2 → Nat) a + S200x200.size a ≤ S200x200.size a
  h_S200x200 : 0 < S200x200.numel
  shapeCasts_S200x200_S200x200 : S200x200.ShapeCasts S200x200
  inb_S200_S200_0 : ∀ a, (![0] : Fin 1 → Nat) a + S200.size a ≤ S200.size a
  h_S200 : 0 < S200.numel
  shapeCasts_S200_S1x200 : S200.ShapeCasts S1x200
  broadcasts_S1x200_S5000x200 : S1x200.Broadcasts S5000x200
  gather_S50000x200_S800000x1_S800000x200_1_0_n_n_0_1_1200_wf : GatherDims.WF S50000x200 S800000x1 S800000x200 [1] [0] [] [0] [] 1 ![1, 200]
  scatter_S50000x200_S800000x1_S800000x200_1_0_0_1_wf : ScatterDims.WF S50000x200 S800000x1 S800000x200 [1] [0] [0] 1
  dot_S5000x200_S200x200_S5000x200_1_0_0_1_n_n_wf : DotDims.WF S5000x200 S200x200 S5000x200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x200.size a ≤ S100000x200.size a
  hwx0_0 : ∀ i : grid0.Coords, EltTy.bits .f32 = 32 ∨ (Rect.block (s := S100000x200) S5000x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x200.size a ≤ S100000x200.size a
  hwx0_1 : ∀ i : grid0.Coords, EltTy.bits .bf16 = 32 ∨ (Rect.block (s := S100000x200) S5000x200.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x200.size a ≤ S100000x200.size a
  hwx1_0 : ∀ i : grid1.Coords, EltTy.bits .f32 = 32 ∨ (Rect.block (s := S100000x200) S5000x200.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S200x200.size a ≤ S200x200.size a
  hwx1_1 : ∀ i : grid1.Coords, EltTy.bits .bf16 = 32 ∨ (Rect.block (s := S200x200) S200x200.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S200.size a ≤ S200.size a
  hwx1_2 : ∀ i : grid1.Coords, EltTy.bits .f32 = 32 ∨ (Rect.block (s := S200) S200.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x200.size a ≤ S100000x200.size a
  hwx1_3 : ∀ i : grid1.Coords, EltTy.bits .bf16 = 32 ∨ (Rect.block (s := S100000x200) S5000x200.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x200.size a ≤ S100000x200.size a
  hwx2_0 : ∀ i : grid2.Coords, EltTy.bits .f32 = 32 ∨ (Rect.block (s := S100000x200) S5000x200.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S200x200.size a ≤ S200x200.size a
  hwx2_1 : ∀ i : grid2.Coords, EltTy.bits .bf16 = 32 ∨ (Rect.block (s := S200x200) S200x200.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S200.size a ≤ S200.size a
  hwx2_2 : ∀ i : grid2.Coords, EltTy.bits .f32 = 32 ∨ (Rect.block (s := S200) S200.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x200.size a ≤ S100000x200.size a
  hwx2_3 : ∀ i : grid2.Coords, EltTy.bits .f32 = 32 ∨ (Rect.block (s := S100000x200) S5000x200.size (cc2_transform_3 i) (hinb2_3 i)).WholeWords (EltTy.packing .f32)

variable [Facts₀]

def gather_S50000x200_S800000x1_S800000x200_1_0_n_n_0_1_1200 : GatherDims S50000x200 S800000x1 S800000x200 where
  offsetDims := [1]
  collapsedSliceDims := [0]
  operandBatchingDims := []
  startIndicesBatchingDims := []
  startIndexMap := [0]
  indexVectorDim := 1
  sliceSizes := ![1, 200]
  wf := gather_S50000x200_S800000x1_S800000x200_1_0_n_n_0_1_1200_wf
def scatter_S50000x200_S800000x1_S800000x200_1_0_0_1 : ScatterDims S50000x200 S800000x1 S800000x200 where
  updateWindowDims := [1]
  insertedWindowDims := [0]
  scatterDimsToOperandDims := [0]
  indexVectorDim := 1
  wf := scatter_S50000x200_S800000x1_S800000x200_1_0_0_1_wf
def dot_S5000x200_S200x200_S5000x200_1_0_0_1_n_n : DotDims S5000x200 S200x200 S5000x200 where
  lhsContracting := [1]
  rhsContracting := [0]
  lhsNonContracting := [0]
  rhsNonContracting := [1]
  lhsBatch := []
  rhsBatch := []
  wf := dot_S5000x200_S200x200_S5000x200_1_0_0_1_n_n_wf

abbrev win0_0 : Pipeline.Window sig grid0 :=
  Pipeline.Window.ofSpec (Memref.whole main_v9) S5000x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x200.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v39) S5000x200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S200x200.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S200.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S5000x200.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v69) S5000x200.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S200x200.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S200.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S5000x200.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x200 : Shape := ⟨2, ![50000, 200]⟩
abbrev S200x200 : Shape := ⟨2, ![200, 200]⟩
abbrev S200 : Shape := ⟨1, ![200]⟩
abbrev S2x800000 : Shape := ⟨2, ![2, 800000]⟩
abbrev S800000x1 : Shape := ⟨2, ![800000, 1]⟩
abbrev S_ : Shape := ⟨0, ![]⟩
abbrev S50000 : Shape := ⟨1, ![50000]⟩
abbrev S50000x1 : Shape := ⟨2, ![50000, 1]⟩
abbrev S1x800000 : Shape := ⟨2, ![1, 800000]⟩
abbrev S800000 : Shape := ⟨1, ![800000]⟩
abbrev S800000x200 : Shape := ⟨2, ![800000, 200]⟩
abbrev S1x200 : Shape := ⟨2, ![1, 200]⟩

abbrev nBuf : Space → Nat
  | .hbm => 124
  | .vmem => 0
  | .smem => 0
  | _ => 0

abbrev bufTy : (tb : Table) → Fin (tcTables nBuf tb) → BufTy
  | .hbm, ⟨0, _⟩ => ⟨S50000x200, .f32⟩
  | .hbm, ⟨1, _⟩ => ⟨S50000x200, .f32⟩
  | .hbm, ⟨2, _⟩ => ⟨S200x200, .f32⟩
  | .hbm, ⟨3, _⟩ => ⟨S200, .f32⟩
  | .hbm, ⟨4, _⟩ => ⟨S2x800000, .i32⟩
  | .hbm, ⟨5, _⟩ => ⟨S2x800000, .i32⟩
  | .hbm, ⟨6, _⟩ => ⟨S800000x1, .f32⟩
  | .hbm, ⟨7, _⟩ => ⟨S800000x1, .f32⟩
  | .hbm, ⟨8, _⟩ => ⟨S50000x200, .f32⟩
  | .hbm, ⟨9, _⟩ => ⟨S_, .f32⟩
  | .hbm, ⟨10, _⟩ => ⟨S50000, .f32⟩
  | .hbm, ⟨11, _⟩ => ⟨S50000x1, .f32⟩
  | .hbm, ⟨12, _⟩ => ⟨S50000x1, .f32⟩
  | .hbm, ⟨13, _⟩ => ⟨S_, .f32⟩
  | .hbm, ⟨14, _⟩ => ⟨S50000x1, .f32⟩
  | .hbm, ⟨15, _⟩ => ⟨S50000x1, .f32⟩
  | .hbm, ⟨16, _⟩ => ⟨S50000x200, .f32⟩
  | .hbm, ⟨17, _⟩ => ⟨S50000x200, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x200, .f32⟩
  | .hbm, ⟨31, _⟩ => ⟨S800000x200, .f32⟩
  | .hbm, ⟨32, _⟩ => ⟨S800000x200, .f32⟩
  | .hbm, ⟨33, _⟩ => ⟨S_, .f32⟩
  | .hbm, ⟨34, _⟩ => ⟨S50000x200, .f32⟩
  | .hbm, ⟨35, _⟩ => ⟨S800000x1, .i32⟩
  | .hbm, ⟨36, _⟩ => ⟨S50000x200, .f32⟩
  | .hbm, ⟨37, _⟩ => ⟨S50000x200, .f32⟩
  | .hbm, ⟨38, _⟩ => ⟨S1x200, .f32⟩
  | .hbm, ⟨39, _⟩ => ⟨S50000x200, .f32⟩
  | .hbm, ⟨40, _⟩ => ⟨S50000x200, .f32⟩
  | .hbm, ⟨41, _⟩ => ⟨S_, .f32⟩
  | .hbm, ⟨42, _⟩ => ⟨S50000x200, .f32⟩
  | .hbm, ⟨43, _⟩ => ⟨S50000x200, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x200, .f32⟩
  | .hbm, ⟨53, _⟩ => ⟨S800000x200, .f32⟩
  | .hbm, ⟨54, _⟩ => ⟨S800000x200, .f32⟩
  | .hbm, ⟨55, _⟩ => ⟨S_, .f32⟩
  | .hbm, ⟨56, _⟩ => ⟨S50000x200, .f32⟩
  | .hbm, ⟨57, _⟩ => ⟨S800000x1, .i32⟩
  | .hbm, ⟨58, _⟩ => ⟨S50000x200, .f32⟩
  | .hbm, ⟨59, _⟩ => ⟨S50000x200, .f32⟩
  | .hbm, ⟨60, _⟩ => ⟨S1x200, .f32⟩
  | .hbm, ⟨61, _⟩ => ⟨S50000x200, .f32⟩
  | .hbm, ⟨62, _⟩ => ⟨S50000x200, .f32⟩
  | .hbm, ⟨63, _⟩ => ⟨S_, .f32⟩
  | .hbm, ⟨64, _⟩ => ⟨S50000x200, .f32⟩
  | .hbm, ⟨65, _⟩ => ⟨S50000x200, .f32⟩
  | .hbm, ⟨66, _⟩ => ⟨S50000x200, .f32⟩
  | .hbm, ⟨67, _⟩ => ⟨S_, .f32⟩
  | .hbm, ⟨68, _⟩ => ⟨S50000, .f32⟩
  | .hbm, ⟨69, _⟩ => ⟨S50000x1, .f32⟩
  | .hbm, ⟨70, _⟩ => ⟨S50000x1, .f32⟩
  | .hbm, ⟨71, _⟩ => ⟨S_, .f32⟩
  | .hbm, ⟨72, _⟩ => ⟨S50000x1, .f32⟩
  | .hbm, ⟨73, _⟩ => ⟨S50000x1, .f32⟩
  | .hbm, ⟨74, _⟩ => ⟨S50000x200, .f32⟩
  | .hbm, ⟨75, _⟩ => ⟨S50000x200, .f32⟩
  | .hbm, ⟨76, _⟩ => ⟨S1x800000, .i32⟩
  | .hbm, ⟨77, _⟩ => ⟨S800000, .i32⟩
  | .hbm, ⟨78, _⟩ => ⟨S1x800000, .i32⟩
  | .hbm, ⟨79, _⟩ => ⟨S800000, .i32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x200, .f32⟩
  | .hbm, ⟨89, _⟩ => ⟨S800000x200, .f32⟩
  | .hbm, ⟨90, _⟩ => ⟨S800000x200, .f32⟩
  | .hbm, ⟨91, _⟩ => ⟨S_, .f32⟩
  | .hbm, ⟨92, _⟩ => ⟨S50000x200, .f32⟩
  | .hbm, ⟨93, _⟩ => ⟨S800000x1, .i32⟩
  | .hbm, ⟨94, _⟩ => ⟨S50000x200, .f32⟩
  | .hbm, ⟨95, _⟩ => ⟨S50000x200, .f32⟩
  | .hbm, ⟨96, _⟩ => ⟨S1x200, .f32⟩
  | .hbm, ⟨97, _⟩ => ⟨S50000x200, .f32⟩
  | .hbm, ⟨98, _⟩ => ⟨S50000x200, .f32⟩
  | .hbm, ⟨99, _⟩ => ⟨S_, .f32⟩
  | .hbm, ⟨100, _⟩ => ⟨S50000x200, .f32⟩
  | .hbm, ⟨101, _⟩ => ⟨S50000x200, .f32⟩
  | .hbm, ⟨102, _⟩ => ⟨S_, .i32⟩
  | .hbm, ⟨103, _⟩ => ⟨S800000, .i32⟩
  | .hbm, ⟨104, _⟩ => ⟨S800000, .i1⟩
  | .hbm, ⟨105, _⟩ => ⟨S_, .i32⟩
  | .hbm, ⟨106, _⟩ => ⟨S800000, .i32⟩
  | .hbm, ⟨107, _⟩ => ⟨S800000, .i32⟩
  | .hbm, ⟨108, _⟩ => ⟨S800000, .i32⟩
  | .hbm, ⟨109, _⟩ => ⟨S800000x1, .i32⟩
  | .hbm, ⟨110, _⟩ => ⟨S800000x200, .f32⟩
  | .hbm, ⟨111, _⟩ => ⟨S800000x200, .f32⟩
  | .hbm, ⟨112, _⟩ => ⟨S800000x200, .f32⟩
  | .hbm, ⟨113, _⟩ => ⟨S_, .f32⟩
  | .hbm, ⟨114, _⟩ => ⟨S50000x200, .f32⟩
  | .hbm, ⟨115, _⟩ => ⟨S800000x1, .i32⟩
  | .hbm, ⟨116, _⟩ => ⟨S50000x200, .f32⟩
  | .hbm, ⟨117, _⟩ => ⟨S50000x200, .f32⟩
  | .hbm, ⟨118, _⟩ => ⟨S1x200, .f32⟩
  | .hbm, ⟨119, _⟩ => ⟨S50000x200, .f32⟩
  | .hbm, ⟨120, _⟩ => ⟨S50000x200, .f32⟩
  | .hbm, ⟨121, _⟩ => ⟨S_, .f32⟩
  | .hbm, ⟨122, _⟩ => ⟨S50000x200, .f32⟩
  | .hbm, ⟨123, _⟩ => ⟨S50000x200, .f32⟩
  | _, _ => ⟨S50000x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call1_cst : Ref sig .tc := ⟨.hbm, 41, rfl⟩
abbrev main_call1_v0 : Ref sig .tc := ⟨.hbm, 42, rfl⟩
abbrev main_v25 : Ref sig .tc := ⟨.hbm, 43, rfl⟩
abbrev main_c_2 : Ref sig .tc := ⟨.hbm, 44, rfl⟩
abbrev main_v26 : Ref sig .tc := ⟨.hbm, 45, rfl⟩
abbrev main_v27 : Ref sig .tc := ⟨.hbm, 46, rfl⟩
abbrev main_c_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_call2_cst : Ref sig .tc := ⟨.hbm, 63, rfl⟩
abbrev main_call2_v0 : Ref sig .tc := ⟨.hbm, 64, rfl⟩
abbrev main_v42 : Ref sig .tc := ⟨.hbm, 65, rfl⟩
abbrev main_call3_v0 : Ref sig .tc := ⟨.hbm, 66, rfl⟩
abbrev main_call3_cst : Ref sig .tc := ⟨.hbm, 67, rfl⟩
abbrev main_call3_v1 : Ref sig .tc := ⟨.hbm, 68, rfl⟩
abbrev main_call3_v2 : Ref sig .tc := ⟨.hbm, 69, rfl⟩
abbrev main_v43 : Ref sig .tc := ⟨.hbm, 70, rfl⟩
abbrev main_cst_5 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_6 : Ref sig .tc := ⟨.hbm, 80, rfl⟩
abbrev main_v52 : Ref sig .tc := ⟨.hbm, 81, rfl⟩
abbrev main_v53 : Ref sig .tc := ⟨.hbm, 82, rfl⟩
abbrev main_c_7 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_8 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_call4_cst : Ref sig .tc := ⟨.hbm, 99, rfl⟩
abbrev main_call4_v0 : Ref sig .tc := ⟨.hbm, 100, rfl⟩
abbrev main_v68 : Ref sig .tc := ⟨.hbm, 101, rfl⟩
abbrev main_c_9 : Ref sig .tc := ⟨.hbm, 102, rfl⟩
abbrev main_v69 : Ref sig .tc := ⟨.hbm, 103, rfl⟩
abbrev main_v70 : Ref sig .tc := ⟨.hbm, 104, rfl⟩
abbrev main_c_10 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_11 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_call5_cst : Ref sig .tc := ⟨.hbm, 121, rfl⟩
abbrev main_call5_v0 : Ref sig .tc := ⟨.hbm, 122, rfl⟩
abbrev main_v85 : Ref sig .tc := ⟨.hbm, 123, rfl⟩

abbrev nD : Nat := 1
abbrev τ : Topo := Topo.v7x

variable {F : FTy → Type} [FloatOps F]

class Facts₀ : Prop where
  reducesTo_S50000x200_S50000_d1 : S50000x200.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x200_0_1 : S50000x1.BroadcastsInDim S50000x200 (![0, 1] : Fin 2 → Fin S50000x200.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x200_0_1 : S800000x1.BroadcastsInDim S800000x200 (![0, 1] : Fin 2 → Fin S800000x200.rank)
  bcast_S_S50000x200 : S_.BroadcastsInDim S50000x200 (![] : Fin 0 → Fin S50000x200.rank)
  bcast_S200_S1x200_1 : S200.BroadcastsInDim S1x200 (![1] : Fin 1 → Fin S1x200.rank)
  bcast_S1x200_S50000x200_0_1 : S1x200.BroadcastsInDim S50000x200 (![0, 1] : Fin 2 → Fin S50000x200.rank)
  gather_S50000x200_S800000x1_S800000x200_1_0_n_n_0_1_1200_wf : GatherDims.WF S50000x200 S800000x1 S800000x200 [1] [0] [] [0] [] 1 ![1, 200]
  scatter_S50000x200_S800000x1_S800000x200_1_0_0_1_wf : ScatterDims.WF S50000x200 S800000x1 S800000x200 [1] [0] [0] 1
  dot_S50000x200_S200x200_S50000x200_1_0_0_1_n_n_wf : DotDims.WF S50000x200 S200x200 S50000x200 [1] [0] [0] [1] [] []

variable [Facts₀]

def gather_S50000x200_S800000x1_S800000x200_1_0_n_n_0_1_1200 : GatherDims S50000x200 S800000x1 S800000x200 where
  offsetDims := [1]
  collapsedSliceDims := [0]
  operandBatchingDims := []
  startIndicesBatchingDims := []
  startIndexMap := [0]
  indexVectorDim := 1
  sliceSizes := ![1, 200]
  wf := gather_S50000x200_S800000x1_S800000x200_1_0_n_n_0_1_1200_wf
def scatter_S50000x200_S800000x1_S800000x200_1_0_0_1 : ScatterDims S50000x200 S800000x1 S800000x200 where
  updateWindowDims := [1]
  insertedWindowDims := [0]
  scatterDimsToOperandDims := [0]
  indexVectorDim := 1
  wf := scatter_S50000x200_S800000x1_S800000x200_1_0_0_1_wf
def dot_S50000x200_S200x200_S50000x200_1_0_0_1_n_n : DotDims S50000x200 S200x200 S50000x200 where
  lhsContracting := [1]
  rhsContracting := [0]
  lhsNonContracting := [0]
  rhsNonContracting := [1]
  lhsBatch := []
  rhsBatch := []
  wf := dot_S50000x200_S200x200_S50000x200_1_0_0_1_n_n_wf

class Facts : Prop extends Facts₀ where

variable [Facts]
-- ==== Proof.KernelRun.lean ====
/-
  The idealized kernel program, run from any memory: every weakly fair execution ends, faults nowhere, leaves the
  eight argument arrays as they were and leaves in each of the two result arrays what the program's last stretch of
  host operations computes from the third dense layer's output array.

  The program is three kernel launches separated by stretches of host operations. The contents of every buffer at each
  boundary are a fold through the program: a host stretch rewrites the buffers its operations write, a launch
  rewrites its output array with what its grid points write back. The last boundary's contents are the fold's end,
  and the final memory agrees with them on every buffer that outlives the launches — the two results among them.
-/
import proofs.«153074_j7610682048666_2_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the two result arrays named: each ends at the last boundary's contents, the arguments as launched. -/
theorem run_results : θ_run defs (onTc (τ := τ) (main (F := F))) ⟨m, fun _ => 0, ρ⟩ (fun r => ∀ c : Dev nD,
      r.2.mem ((c.tc : Thread nD τ).loc main_v71) = W7 m ρ c (Proc.devRef .tc main_v71)
      ∧ r.2.mem ((c.tc : Thread nD τ).loc main_v72) = W7 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v71 (by decide)),
       h c _ (mem_uc main_v72 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.Gcn.KernelRun

end
-- ==== Proof.LibDenseLayer.lean ====
/-
  A dense layer on the extended reals. For `x : [M, K]`, `w : [K, N]` and a bias `b` per column, the entry `(p, q)`
  of `x · w + b` is `(∑ k, x (p, k) · w (k, q)) + b q`: row `p` of `x` against column `q` of `w`. `denseClamp` is the same
  layer applied to `max x z`, the entries of `x` clamped below at `z` (a rectifier when `z` is zero).

  An entry of the layer depends on ONE row of `x` only. So a block of consecutive rows of the layer's output is the layer
  applied to that block of rows of `x` (`denseAt_rows`): computing the layer block of rows by block of rows, in any
  order, gives the layer.
-/
import Idealize.ShloMosaic.Lib.ValueIdx

noncomputable section

open scoped BigOperators

namespace Cert.DenseLayer

open Idealize.ShloMosaic Idealize.ShloMosaic.ValueIdx

/-- Entry `(p, q)` of `x · w + b`. -/
def denseAt {M K N : ℕ} (x : (⟨2, ![M, K]⟩ : Shape).Idx → EReal) (w : (⟨2, ![K, N]⟩ : Shape).Idx → EReal) (b : Fin N → EReal)
    (p : Fin M) (q : Fin N) : EReal :=
  (∑ k : Fin K, x (ix2 p k) * w (ix2 k q)) + b q

/-- The array `x · w + b`. -/
def dense {M K N : ℕ} (x : (⟨2, ![M, K]⟩ : Shape).Idx → EReal) (w : (⟨2, ![K, N]⟩ : Shape).Idx → EReal) (b : Fin N → EReal) :
    (⟨2, ![M, N]⟩ : Shape).Idx → EReal :=
  fun i => denseAt x w b (i 0) (i 1)

theorem dense_ix2 {M K N : ℕ} (x : (⟨2, ![M, K]⟩ : Shape).Idx → EReal) (w : (⟨2, ![K, N]⟩ : Shape).Idx → EReal) (b : Fin N → EReal)
    (p : Fin M) (q : Fin N) : dense x w b (ix2 p q) = denseAt x w b p q := rfl

/-- The array `max x z · w + b`. -/
def denseClamp {M K N : ℕ} (z : EReal) (x : (⟨2, ![M, K]⟩ : Shape).Idx → EReal) (w : (⟨2, ![K, N]⟩ : Shape).Idx → EReal)
    (b : Fin N → EReal) : (⟨2, ![M, N]⟩ : Shape).Idx → EReal :=
  dense (fun i => max (x i) z) w b

/-- Row `p` of the layer on a block of rows is row `P` of the layer on the whole array, when row `p` of the block is
    row `P` of the array. -/
theorem denseAt_rows {M m K N : ℕ} (x : (⟨2, ![M, K]⟩ : Shape).Idx → EReal) (xb : (⟨2, ![m, K]⟩ : Shape).Idx → EReal)
    (w : (⟨2, ![K, N]⟩ : Shape).Idx → EReal) (b : Fin N → EReal) (p : Fin m) (P : Fin M) (q : Fin N)
    (h : ∀ k : Fin K, xb (ix2 p k) = x (ix2 P k)) : denseAt xb w b p q = denseAt x w b P q := by
  unfold denseAt
  exact congrArg (· + b q) (Finset.sum_congr rfl fun k _ => by rw [h k])

end Cert.DenseLayer

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibLayerForms.lean ====
/-
  One layer of a multilayer perceptron on the extended reals, as a vector unit spells it and as a host program spells it,
  and the rectifier between two layers.

  A layer takes a matrix `x : [M, K]`, a weight matrix `w : [K, N]` and a bias vector `b : [N]` to the matrix
  `x · w + b`, the bias added to every row: entry `(p, q)` is `(∑ k, x (p, k) · w (k, q)) + b q`. A vector unit forms the
  product by a matrix multiplication into a zero accumulator, lifts the bias to a `[1, N]` row by a shape cast and broadcasts
  that row over the `M` rows (`vec_layer`). A host program forms the product by a general dot product, lifts the bias
  to a `[1, N]` row by a broadcast along a new leading axis and broadcasts that row over the rows (`host_layer`). Both are
  the same array `dense x w b`. The rectifier `max v 0` is spelt with a scalar zero broadcast to the shape on the vector unit
  (`vec_relu`) and with a rank-0 zero constant broadcast to the shape on the host (`host_relu`).

  A layer's row `p` depends on row `p` of its operand only, and so does the rectifier's. `RowsAgree xb x off` says that
  `xb` is the block of rows `off, off + 1, …` of `x`; a layer and the rectifier send agreeing operands to agreeing results
  (`dense_rows`, `relu_rows`), so a perceptron evaluated on a block of rows is that block of rows of the perceptron
  evaluated on all rows.
-/
import proofs.«153074_j7610682048666_2_alg».proof.Proof.LibDenseLayer
import proofs.«153074_j7610682048666_2_alg».proof.Proof.LibPlainMatmul
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LayerForms

open Idealize.ShloMosaic Idealize.ShloMosaic.ValueIdx Cert.DenseLayer

/-- A bias vector as a function of the column. -/
def colBias {N : ℕ} (b : (⟨1, ![N]⟩ : Shape).Idx → EReal) : Fin N → EReal := fun q => b (ix1 q)

/-- The rectifier: every entry clamped below at zero. -/
def relu {S : Shape} (v : S.Idx → EReal) : S.Idx → EReal := fun i => max (v i) 0

/-- A plain `[M, K] · [K, N]` general dot product of a host program, at `(p, q)`, is `∑ k, l (p, k) · r (k, q)`. -/
theorem dotGeneral_plain_apply {M K N : ℕ} {φ₁ φ₂ : FTy}
    (D : DotDims ⟨2, ![M, K]⟩ ⟨2, ![K, N]⟩ ⟨2, ![M, N]⟩) (hD : D = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  subst hD
  rw [Ideal.dotGeneral_apply, ← Equiv.sum_comp (contrEquiv1 (DotDims.plain M K N) K rfl rfl).symm]
  refine Finset.sum_congr rfl fun k _ => ?_
  rw [Cert.LibPlainMatmul.plain_lhsIdx, Cert.LibPlainMatmul.plain_rhsIdx]

/-- The layer as a vector unit spells it: the product into a zero accumulator, plus the bias cast to a row and
    broadcast over the rows. -/
theorem vec_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) :
    addf (matmul D prec x w (constant ⟨2, ![M, N]⟩ .f32 0x00000000#32))
        (broadcastTo ⟨2, ![M, N]⟩ (shapeCast ⟨2, ![1, N]⟩ b hc) hb)
      = dense x w (colBias b) := by
  funext i
  obtain ⟨p, q, rfl⟩ : ∃ (p : Fin M) (q : Fin N), i = ix2 p q := ⟨i 0, i 1, eq_ix2 i⟩
  show FloatOps.matmul D prec x w (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix1 q)
  rw [Cert.LibPlainMatmul.matmul_plain_zero_apply D hD, broadcastTo_1b_ab_apply, shapeCast_a_1a_apply]

/-- The layer as a host program spells it: the general dot product, plus the bias broadcast to a row along a new leading
    axis and that row broadcast over the rows. -/
theorem host_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D prec x w)
        (broadcastInDim ⟨2, ![M, N]⟩ ![0, 1] h2 (broadcastInDim ⟨2, ![1, N]⟩ ![1] h1 b))
      = dense x w (colBias b) := by
  funext i
  obtain ⟨p, q, rfl⟩ : ∃ (p : Fin M) (q : Fin N), i = ix2 p q := ⟨i 0, i 1, eq_ix2 i⟩
  show FloatOps.dotGeneral D prec .single x w (ix2 p q)
      + broadcastInDim ⟨2, ![M, N]⟩ ![0, 1] h2 (broadcastInDim ⟨2, ![1, N]⟩ ![1] h1 b) (ix2 p q)
    = (∑ k : Fin K, x (ix2 p k) * w (ix2 k q)) + b (ix1 q)
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) := by
    refine broadcastInDim_apply ![0, 1] h2 _ (ix2 p q) (ix2 (0 : Fin 1) q) fun a => ?_
    match a with
    | ⟨0, _⟩ => rfl
    | ⟨1, _⟩ =>
      show q.val = if N = 1 then 0 else q.val
      split
      · have := q.isLt; omega
      · rfl
  have e1 : broadcastInDim ⟨2, ![1, N]⟩ ![1] h1 b (ix2 (0 : Fin 1) q) = b (ix1 q) := by
    refine broadcastInDim_apply ![1] h1 b (ix2 (0 : Fin 1) q) (ix1 q) fun a => ?_
    match a with
    | ⟨0, _⟩ =>
      show q.val = if N = 1 then 0 else q.val
      split
      · have := q.isLt; omega
      · rfl
  rw [dotGeneral_plain_apply D hD, e2, e1]

/-- The rectifier as a vector unit spells it: the maximum with a scalar zero broadcast to the shape. -/
theorem vec_relu {S : Shape} (v : FVec Ideal S .f32) :
    maximumf v (broadcast S (Scalar.ofBits (F := Ideal) .f32 0x00000000#32)) = relu v := by
  funext i
  show max (v i) (Ideal.ofBits .f32 0x00000000#32) = max (v i) 0
  rw [Ideal.ofBits_zero_f32]

/-- The rectifier as a host program spells it: the maximum with a rank-0 zero constant broadcast to the shape. -/
theorem host_relu {S : Shape} (v : FVec Ideal S .f32) (h : (⟨0, ![]⟩ : Shape).BroadcastsInDim S ![]) :
    maximumf v (broadcastInDim S ![] h (constant (F := Ideal) ⟨0, ![]⟩ .f32 0x00000000#32)) = relu v := by
  funext i
  show max (v i) (Ideal.ofBits .f32 0x00000000#32) = max (v i) 0
  rw [Ideal.ofBits_zero_f32]

/-! ## Blocks of rows -/

/-- `xb` is the block of rows `off, off + 1, …` of `x`. -/
def RowsAgree {m M K : ℕ} (xb : (⟨2, ![m, K]⟩ : Shape).Idx → EReal) (x : (⟨2, ![M, K]⟩ : Shape).Idx → EReal) (off : ℕ) : Prop :=
  ∀ (p : Fin m) (P : Fin M), P.val = off + p.val → ∀ k : Fin K, xb (ix2 p k) = x (ix2 P k)

/-- A layer on a block of rows is that block of rows of the layer. -/
theorem dense_rows {m M K N : ℕ} {xb : (⟨2, ![m, K]⟩ : Shape).Idx → EReal} {x : (⟨2, ![M, K]⟩ : Shape).Idx → EReal} {off : ℕ}
    (h : RowsAgree xb x off) (w : (⟨2, ![K, N]⟩ : Shape).Idx → EReal) (b : Fin N → EReal) :
    RowsAgree (dense xb w b) (dense x w b) off :=
  fun p P hP q => by
    rw [dense_ix2, dense_ix2]
    exact denseAt_rows x xb w b p P q (h p P hP)

/-- The rectifier on a block of rows is that block of rows of the rectifier. -/
theorem relu_rows {m M K : ℕ} {xb : (⟨2, ![m, K]⟩ : Shape).Idx → EReal} {x : (⟨2, ![M, K]⟩ : Shape).Idx → EReal} {off : ℕ}
    (h : RowsAgree xb x off) : RowsAgree (relu xb) (relu x) off :=
  fun p P hP k => by
    show max (xb (ix2 p k)) 0 = max (x (ix2 P k)) 0
    rw [h p P hP k]

end Cert.LayerForms

end
-- ==== Proof.LibColumn.lean ====
/-
  Column vectors read at an index.

  A vector of length `a` re-laid as an `a × 1` column holds, at row `i`, the vector's entry `i`.
  An `a × 1` column broadcast to `a × b` holds, at `(p, c)`, the column's entry at row `p`.
  Summing an `a × 1` column over its rows, or an `a × b` array over its columns, inserts the summed
  coordinate at the place the reduced index leaves open: the inserted index is `(k, u)` resp. `(r, k)`.
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- A length-`a` vector cast to an `a × 1` column reads, at `(i, 0)`, the vector at `i`:
    both positions are number `i` in row-major order. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Summing an `a × b` array along its columns: the index of row `r` with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Summing an `a × 1` column along its rows: the one reduced index with row `k` put back is `(k, 0)`. -/
theorem lift_rows {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

end Cert.LibColumn
-- ==== Proof.LibRowNorm.lean ====
/-
  Rows scaled to unit Euclidean length, on the extended reals, as a vector unit spells it and as a host program spells it.

  For `x : [M, K]` and a floor `ε`, entry `(p, q)` of the scaled array is `x (p, q) / max (√(∑ k, x (p, k)²)) ε`: every
  entry of row `p` divided by the length of row `p`, the length kept from falling below `ε`. A vector unit sums the
  squares along the lanes, casts the `M` sums to an `M × 1` column, takes the root, clamps against a scalar broadcast
  to the column and broadcasts the column over the `K` lanes before dividing (`vec_norm`). A host program sums the
  squares from a zero initial value, broadcasts the sums to a column along a new trailing axis, takes the root, clamps
  against a rank-0 constant broadcast to the column and broadcasts the column over the columns before dividing
  (`host_norm`). Both are the same array `rowNorm x ε`.

  Row `p` of the result depends on row `p` of `x` only (`normAt_rows`): scaling a block of consecutive rows gives that
  block of rows of the scaled array.
-/
import Idealize.ShloMosaic.PureOps.Ideal.Laws
import Idealize.ShloMosaic.Lib.Pipeline.Value
import Idealize.ShloMosaic.Lib.ValueIdx
import Idealize.ShloMosaic.Lib.ValueLayout
import proofs.«153074_j7610682048666_2_alg».proof.Proof.LibColumn

noncomputable section

open scoped BigOperators

namespace Cert.RowNorm

open Idealize.ShloMosaic Idealize.ShloMosaic.ValueIdx

/-- Entry `(p, q)` of the array whose rows are those of `x` divided by their Euclidean length, the length floored at `ε`. -/
def normAt {M K : ℕ} (x : (⟨2, ![M, K]⟩ : Shape).Idx → EReal) (ε : EReal) (p : Fin M) (q : Fin K) : EReal :=
  Ideal.div (x (ix2 p q)) (max (Ideal.sqrt (∑ k : Fin K, x (ix2 p k) * x (ix2 p k))) ε)

/-- The array of those entries. -/
def rowNorm {M K : ℕ} (x : (⟨2, ![M, K]⟩ : Shape).Idx → EReal) (ε : EReal) : (⟨2, ![M, K]⟩ : Shape).Idx → EReal :=
  fun i => normAt x ε (i 0) (i 1)

theorem rowNorm_ix2 {M K : ℕ} (x : (⟨2, ![M, K]⟩ : Shape).Idx → EReal) (ε : EReal) (p : Fin M) (q : Fin K) :
    rowNorm x ε (ix2 p q) = normAt x ε p q := rfl

/-- Row `p` of a scaled block of rows is row `P` of the scaled array, when row `p` of the block is row `P` of the array. -/
theorem normAt_rows {M m K : ℕ} (x : (⟨2, ![M, K]⟩ : Shape).Idx → EReal) (xb : (⟨2, ![m, K]⟩ : Shape).Idx → EReal) (ε : EReal)
    (p : Fin m) (P : Fin M) (q : Fin K) (h : ∀ k : Fin K, xb (ix2 p k) = x (ix2 P k)) : normAt xb ε p q = normAt x ε P q := by
  unfold normAt
  rw [h q]
  exact congrArg (fun s => Ideal.div (x (ix2 P q)) (max (Ideal.sqrt s) ε)) (Finset.sum_congr rfl fun k _ => by rw [h k])

/-! ## Broadcasts of a host program read at an index -/

/-- An `a × 1` column broadcast over `b` columns reads, at `(p, c)`, the column at row `p`. -/
theorem bcast_col_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A length-`a` vector broadcast to an `a × 1` column along a new trailing axis reads, at `(p, 0)`, the vector at `p`. -/
theorem bcast_vec_col_apply {α : Type} {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A rank-0 value broadcast to any shape reads that value everywhere. -/
theorem bcast_scalar_apply {α : Type} {S : Shape} (v : (⟨0, ![]⟩ : Shape).Idx → α)
    (h : (⟨0, ![]⟩ : Shape).BroadcastsInDim S ![]) (i : S.Idx) :
    broadcastInDim S ![] h v i = v ix0 :=
  broadcastInDim_apply ![] h v i ix0 fun ax => ax.elim0

/-- A host program's sum of the rows of `y` from a zero initial value, at row `p`. -/
theorem host_rowsum {M K : ℕ} (y : FVec Ideal ⟨2, ![M, K]⟩ .f32)
    (hr : (⟨2, ![M, K]⟩ : Shape).ReducesTo [1] ⟨1, ![M]⟩) (hred : (⟨2, ![M, K]⟩ : Shape).Reduces [1] ⟨1, ![M]⟩)
    (hu : 0 < (⟨0, ![]⟩ : Shape).numel) (p : Fin M) :
    Host.reduceAdd y (constant (F := Ideal) ⟨0, ![]⟩ .f32 0x00000000#32) hr hu (ix1 p) = ∑ k : Fin K, y (ix2 p k) := by
  simp only [Host.reduceAdd, Ideal.hostReduceAdd_def]
  rw [Ideal.hostReduceAdd_single hr hred]
  show Ideal.ofBits .f32 0x00000000#32 + _ = _
  rw [Ideal.ofBits_zero_f32, zero_add]
  exact Finset.sum_congr rfl fun k _ => by rw [Cert.LibColumn.lift_cols]; rfl

/-! ## The two spellings -/

/-- The scaling as a vector unit spells it. -/
theorem vec_norm {M K : ℕ} (x : FVec Ideal ⟨2, ![M, K]⟩ .f32) (εb : BitVec 32)
    (hred : (⟨2, ![M, K]⟩ : Shape).Reduces [1] ⟨1, ![M]⟩) (hφ : FKind.Formats .f32)
    (hacc : (0x00000000#32 : BitVec FTy.f32.bits) = FKind.add.neutral .f32 hφ)
    (hc : (⟨1, ![M]⟩ : Shape).ShapeCasts ⟨2, ![M, 1]⟩)
    (hb : (⟨2, ![M, 1]⟩ : Shape).Broadcasts ⟨2, ![M, K]⟩) (hlt : FTy.bf16.bits < FTy.f32.bits) :
    truncf .bf16 (divf x (broadcastTo ⟨2, ![M, K]⟩ (maximumf (sqrt (shapeCast ⟨2, ![M, 1]⟩
        (multiReduction .add [1] ⟨1, ![M]⟩ (mulf x x) 0x00000000#32 hred hφ hacc) hc))
        (broadcast ⟨2, ![M, 1]⟩ (Scalar.ofBits (F := Ideal) .f32 εb))) hb)) hlt
      = rowNorm x (Ideal.ofBits .f32 εb) := by
  funext i
  obtain ⟨p, q, rfl⟩ : ∃ (p : Fin M) (q : Fin K), i = ix2 p q := ⟨i 0, i 1, eq_ix2 i⟩
  show Ideal.div (x (ix2 p q)) (broadcastTo ⟨2, ![M, K]⟩ (maximumf (sqrt (shapeCast ⟨2, ![M, 1]⟩
        (multiReduction .add [1] ⟨1, ![M]⟩ (mulf x x) 0x00000000#32 hred hφ hacc) hc))
        (broadcast ⟨2, ![M, 1]⟩ (Scalar.ofBits (F := Ideal) .f32 εb))) hb (ix2 p q)) = normAt x (Ideal.ofBits .f32 εb) p q
  rw [Cert.LibColumn.broadcastTo_a1_ab_apply]
  show Ideal.div (x (ix2 p q)) (max (Ideal.sqrt (shapeCast ⟨2, ![M, 1]⟩
        (multiReduction .add [1] ⟨1, ![M]⟩ (mulf x x) 0x00000000#32 hred hφ hacc) hc (ix2 p (0 : Fin 1)))) (Ideal.ofBits .f32 εb))
      = normAt x (Ideal.ofBits .f32 εb) p q
  rw [Cert.LibColumn.shapeCast_a_a1_apply, Ideal.multiReduction_add_single]
  unfold normAt
  refine congrArg (fun s => Ideal.div (x (ix2 p q)) (max (Ideal.sqrt s) (Ideal.ofBits .f32 εb))) (Finset.sum_congr rfl fun k _ => ?_)
  rw [Cert.LibColumn.lift_cols]
  rfl

/-- The scaling as a host program spells it. -/
theorem host_norm {M K : ℕ} (x : FVec Ideal ⟨2, ![M, K]⟩ .f32) (εb : BitVec 32)
    (hr : (⟨2, ![M, K]⟩ : Shape).ReducesTo [1] ⟨1, ![M]⟩) (hred : (⟨2, ![M, K]⟩ : Shape).Reduces [1] ⟨1, ![M]⟩)
    (hu : 0 < (⟨0, ![]⟩ : Shape).numel)
    (h1 : (⟨1, ![M]⟩ : Shape).BroadcastsInDim ⟨2, ![M, 1]⟩ ![0])
    (h2 : (⟨0, ![]⟩ : Shape).BroadcastsInDim ⟨2, ![M, 1]⟩ ![])
    (h3 : (⟨2, ![M, 1]⟩ : Shape).BroadcastsInDim ⟨2, ![M, K]⟩ ![0, 1]) :
    Host.divf x (broadcastInDim ⟨2, ![M, K]⟩ ![0, 1] h3 (maximumf (Host.sqrt (broadcastInDim ⟨2, ![M, 1]⟩ ![0] h1
        (Host.reduceAdd (mulf x x) (constant (F := Ideal) ⟨0, ![]⟩ .f32 0x00000000#32) hr hu)))
        (broadcastInDim ⟨2, ![M, 1]⟩ ![] h2 (constant (F := Ideal) ⟨0, ![]⟩ .f32 εb))))
      = rowNorm x (Ideal.ofBits .f32 εb) := by
  funext i
  obtain ⟨p, q, rfl⟩ : ∃ (p : Fin M) (q : Fin K), i = ix2 p q := ⟨i 0, i 1, eq_ix2 i⟩
  show Ideal.div (x (ix2 p q)) (broadcastInDim ⟨2, ![M, K]⟩ ![0, 1] h3 (maximumf (Host.sqrt (broadcastInDim ⟨2, ![M, 1]⟩ ![0] h1
        (Host.reduceAdd (mulf x x) (constant (F := Ideal) ⟨0, ![]⟩ .f32 0x00000000#32) hr hu)))
        (broadcastInDim ⟨2, ![M, 1]⟩ ![] h2 (constant (F := Ideal) ⟨0, ![]⟩ .f32 εb))) (ix2 p q)) = normAt x (Ideal.ofBits .f32 εb) p q
  rw [bcast_col_apply]
  show Ideal.div (x (ix2 p q)) (max (Ideal.sqrt (broadcastInDim ⟨2, ![M, 1]⟩ ![0] h1
        (Host.reduceAdd (mulf x x) (constant (F := Ideal) ⟨0, ![]⟩ .f32 0x00000000#32) hr hu) (ix2 p (0 : Fin 1))))
        (broadcastInDim ⟨2, ![M, 1]⟩ ![] h2 (constant (F := Ideal) ⟨0, ![]⟩ .f32 εb) (ix2 p (0 : Fin 1))))
      = normAt x (Ideal.ofBits .f32 εb) p q
  rw [bcast_vec_col_apply, bcast_scalar_apply, host_rowsum (mulf x x) hr hred hu p]
  rfl

end Cert.RowNorm

end
-- ==== Proof.LibRowBlocks.lean ====
/-
  Two arrays stacked along their rows, and a run of consecutive rows cut out of an array, in the vocabulary of row blocks.

  `RowsAgree xb x off` says that `xb` is the block of rows `off, off + 1, …` of `x`. Stacking `x₁` (`a` rows) on top of
  `x₂` gives an array whose rows from `0` are `x₁` and whose rows from `a` are `x₂` (`concat_rows_lo`, `concat_rows_hi`).
  Conversely the slice of `m` whole rows of an array from row `off` IS any array that agrees with those rows
  (`slice_of_rows`). Scaling rows to unit length sends agreeing operands to agreeing results (`rowNorm_rows`), as a dense
  layer and the rectifier do.
-/
import Idealize.ShloMosaic.Lib.Pipeline.Value
import Idealize.ShloMosaic.Lib.ValueIdx
import proofs.«153074_j7610682048666_2_alg».proof.Proof.LibLayerForms
import proofs.«153074_j7610682048666_2_alg».proof.Proof.LibRowNorm

noncomputable section

namespace Cert.RowBlocks

open Idealize.ShloMosaic Idealize.ShloMosaic.ValueIdx Cert.LayerForms

/-- The first piece of a stack of two is its rows from `0`. -/
theorem concat_rows_lo {a b M K : ℕ} (x₁ : (⟨2, ![a, K]⟩ : Shape).Idx → EReal) (x₂ : (⟨2, ![b, K]⟩ : Shape).Idx → EReal)
    (h : Shape.Concatenates [⟨2, ![a, K]⟩, ⟨2, ![b, K]⟩] ⟨2, ![M, K]⟩ 0) :
    RowsAgree x₁ (concatenate ⟨2, ![M, K]⟩ 0 [⟨⟨2, ![a, K]⟩, x₁⟩, ⟨⟨2, ![b, K]⟩, x₂⟩] h) 0 :=
  fun p P hP k => (concatenate_pair_apply_left 0 x₁ x₂ h (ix2 P k) rfl (ix2 p k) (fun ax => by
    match ax with
    | ⟨0, _⟩ => show p.val = P.val; omega
    | ⟨1, _⟩ => rfl)).symm

/-- The second piece is its rows from the first piece's height. -/
theorem concat_rows_hi {a b M K : ℕ} (x₁ : (⟨2, ![a, K]⟩ : Shape).Idx → EReal) (x₂ : (⟨2, ![b, K]⟩ : Shape).Idx → EReal)
    (h : Shape.Concatenates [⟨2, ![a, K]⟩, ⟨2, ![b, K]⟩] ⟨2, ![M, K]⟩ 0) :
    RowsAgree x₂ (concatenate ⟨2, ![M, K]⟩ 0 [⟨⟨2, ![a, K]⟩, x₁⟩, ⟨⟨2, ![b, K]⟩, x₂⟩] h) a :=
  fun p P hP k => (concatenate_pair_apply_right 0 x₁ x₂ h (ix2 P k) rfl rfl (ix2 p k) (fun ax hne => by
    match ax with
    | ⟨0, _⟩ => exact absurd rfl hne
    | ⟨1, _⟩ => rfl) (by show p.val + a = P.val; omega)).symm

/-- The slice of `m` whole rows from row `off` is any array that agrees with those rows. -/
theorem slice_of_rows {m M K off : ℕ} (X : (⟨2, ![M, K]⟩ : Shape).Idx → EReal) (g : (⟨2, ![m, K]⟩ : Shape).Idx → EReal)
    (hs : (⟨2, ![M, K]⟩ : Shape).Slices ![off, 0] ⟨2, ![m, K]⟩) (hb : off + m ≤ M) (h : RowsAgree g X off) :
    extractStridedSlice ⟨2, ![m, K]⟩ ![off, 0] X hs = g := by
  funext j
  obtain ⟨p, k, rfl⟩ : ∃ (p : Fin m) (k : Fin K), j = ix2 p k := ⟨j 0, j 1, eq_ix2 j⟩
  have hP : off + p.val < M := by have := p.isLt; omega
  refine (extractStridedSlice_apply ![off, 0] X hs (ix2 p k) (ix2 (⟨off + p.val, hP⟩ : Fin M) k) (fun ax => ?_)).trans
    (h p ⟨off + p.val, hP⟩ rfl k).symm
  match ax with
  | ⟨0, _⟩ => rfl
  | ⟨1, _⟩ => show k.val = 0 + k.val; omega

/-- Scaling a block of rows to unit length gives that block of rows of the scaled array. -/
theorem rowNorm_rows {m M K : ℕ} {xb : (⟨2, ![m, K]⟩ : Shape).Idx → EReal} {x : (⟨2, ![M, K]⟩ : Shape).Idx → EReal} {off : ℕ}
    (h : RowsAgree xb x off) (ε : EReal) : RowsAgree (Cert.RowNorm.rowNorm xb ε) (Cert.RowNorm.rowNorm x ε) off :=
  fun p P hP q => by
    rw [Cert.RowNorm.rowNorm_ix2, Cert.RowNorm.rowNorm_ix2]
    exact Cert.RowNorm.normAt_rows x xb ε p P q (h p P hP)

/-- The layer as a vector unit spells it, its operands of any float formats: the product into a zero accumulator, plus
    the bias cast to a row and broadcast over the rows. -/
theorem vec_layer_any {M K N : ℕ} {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (w : FVec Ideal ⟨2, ![K, N]⟩ φ₂)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) :
    addf (matmul D prec x w (constant ⟨2, ![M, N]⟩ .f32 0x00000000#32))
        (broadcastTo ⟨2, ![M, N]⟩ (shapeCast ⟨2, ![1, N]⟩ b hc) hb)
      = Cert.DenseLayer.dense x w (colBias b) := by
  funext i
  obtain ⟨p, q, rfl⟩ : ∃ (p : Fin M) (q : Fin N), i = ix2 p q := ⟨i 0, i 1, eq_ix2 i⟩
  show FloatOps.matmul D prec x w (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix1 q)
  rw [Cert.LibPlainMatmul.matmul_plain_zero_apply D hD, broadcastTo_1b_ab_apply, shapeCast_a_1a_apply]

end Cert.RowBlocks

end
-- ==== Proof.KernelRegions.lean ====
/-
  What each of the three kernel launches leaves in its output array, as one function of the arrays the launch finds.

  Every launch walks a grid of 20 points over a stacked table of 100000 rows; point `t` loads rows `5000 t … 5000 t + 4999`,
  computes on them, and writes the result back over the same rows of the output array. The first launch scales every
  row to unit Euclidean length; the second and the third apply a dense layer and the rectifier, reading the whole
  weight matrix and the whole bias vector at every point. Each of these computations sends a block of rows to the same
  block of rows of the result, so what point `t` writes back is block `t` of the computation applied to the whole
  table, and since the 20 blocks cover the output array, the array ends holding that whole-table result.
-/
import proofs.«153074_j7610682048666_2_alg».proof.Proof.Gen.KernelIdeal.Frame
import proofs.«153074_j7610682048666_2_alg».proof.Proof.LibRowBlocks
import Idealize.ShloMosaic.Lib.Pipeline.Value
import Idealize.ShloMosaic.Lib.Tactic

set_option maxRecDepth 16384

noncomputable section

namespace Cert.Gcn.Regions

open Cert.KernelIdeal Cert.KernelIdeal.Gen
open Idealize.ShloMosaic Idealize.ShloMosaic.TcCoe Idealize.SL.Sem Idealize.ShloMosaic.ValueIdx
open Idealize.ShloMosaic.Pipeline (Dat)
open Cert.LayerForms Cert.DenseLayer Cert.RowNorm Cert.RowBlocks

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The floor under a row's length: the value of the literal both programs share. -/
abbrev lengthFloor : EReal := Ideal.ofBits .f32 0x2B8CBCCC#32

/-! ## Launch 0: every row of the stacked table `main_v9` scaled to unit length, block of 5000 rows by block -/

/-- What one grid point stores: its block of rows, each scaled to unit length. -/
theorem pay_norm (x0 : Vec Ideal S5000x200 .f32) : k0_pay1 x0 = rowNorm x0 lengthFloor := by
  unfold k0_pay1
  simp only [shapeCast_self]
  exact vec_norm x0 0x2B8CBCCC#32 _ _ _ _ _ _

/-- Where the windows' blocks sit at grid point `t`: both at block row `t`. -/
theorem idx0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input window's block at point `t` is rows `5000 t, 5000 t + 1, …` of the stacked table. -/
theorem blk0_rows (c : Dev nD) (t : Fin cfg0.N) :
    RowsAgree (iblk0 V c 0 t : S5000x200.Idx → EReal) (V c main_v9 : S100000x200.Idx → EReal) (t.val * 5000) := by
  intro p P hP k
  obtain ⟨e00, e01, -⟩ := idx0 t
  unfold iblk0
  rw [View.read_apply]
  show (V c main_v9 : S100000x200.Idx → EReal) _ = (V c main_v9 : S100000x200.Idx → EReal) _
  refine congrArg _ (funext fun a => Fin.ext ?_)
  match a with
  | ⟨0, _⟩ => show win0_0.index t (0 : Fin 2) * 5000 + 1 * p.val = P.val; rw [e00]; omega
  | ⟨1, _⟩ => show win0_0.index t (1 : Fin 2) * 200 + 1 * k.val = k.val; rw [e01]; omega

/-- The output array after the launch: every row of the stacked table scaled to unit length. -/
def G0 (c : Dev nD) : S100000x200.Idx → EReal :=
  rowNorm (V c main_v9 : S100000x200.Idx → EReal) lengthFloor

/-- What point `t` writes back is block `t` of `G0`: a scaled row depends on that row only. -/
theorem flushed0 (c : Dev nD) (t : Fin cfg0.N) :
    (dat0 V c).flushed 1 t = ((cfg0.win 1).blk t).view.read (Elt Ideal) (G0 V c) := by
  show (cfg0.win 1).cut (grid0.coords t) ((dat0 V c).after 1 t) = _
  rw [after0_1]
  unfold out0_1
  rw [View.canon_unit_zero hz2]
  simp only [View.ld_unit_zero (S := S5000x200) hz2]
  rw [pay_norm]
  obtain ⟨-, -, e10, e11⟩ := idx0 t
  have ht : t.val < 20 := lt_of_lt_of_eq t.isLt N_0
  funext j
  have h0 : (j 0).val < 5000 := (j 0).isLt
  have key := rowNorm_rows (blk0_rows V c t) lengthFloor
    (j 0) (⟨t.val * 5000 + (j 0).val, by omega⟩ : Fin 100000) rfl (j 1)
  refine (congrArg _ (eq_ix2 (n0 := 5000) (n1 := 200) j)).trans (key.trans (congrArg (G0 V c) ?_))
  funext a
  apply Fin.ext
  match a with
  | ⟨0, _⟩ => show t.val * 5000 + (j 0).val = win0_1.index t (0 : Fin 2) * 5000 + 1 * (j 0).val; rw [e10]; omega
  | ⟨1, _⟩ => show (j 1).val = win0_1.index t (1 : Fin 2) * 200 + 1 * (j 1).val; rw [e11]; omega

/-- An index of the output array is in point `t`'s block iff each coordinate is in the block's range on its axis. -/
theorem mem_blk0 (t : Fin cfg0.N) (i : S100000x200.Idx) :
    i ∈ ((cfg0.win 1).blk t).view.set ↔ ∀ a : Fin 2, win0_1.index t a * S5000x200.size a ≤ (i a).val ∧ (i a).val < win0_1.index t a * S5000x200.size a + S5000x200.size a := by
  show i ∈ ((View.whole main_v10).slice (win0_1.rect t)).set ↔ _
  rw [View.set_slice_whole, Rect.mem_set_unit]
  exact Iff.rfl

/-- Every row of the output array is in the block of the point `row / 5000`. -/
theorem cover0 (i : S100000x200.Idx) : ∃ t : Fin cfg0.N, (cfg0.win 1).flush t = true ∧ i ∈ ((cfg0.win 1).blk t).view.set := by
  have hi0 : (i 0).val < 100000 := (i 0).isLt
  have hi1 : (i 1).val < 200 := (i 1).isLt
  have hlt : (i 0).val / 5000 < cfg0.N := by rw [show cfg0.N = 20 from N_0]; omega
  obtain ⟨-, -, e10, e11⟩ := idx0 ⟨(i 0).val / 5000, hlt⟩
  refine ⟨⟨(i 0).val / 5000, hlt⟩, flush0_1 _, ?_⟩
  rw [mem_blk0]
  intro a
  match a with
  | ⟨0, _⟩ =>
    show win0_1.index ⟨(i 0).val / 5000, hlt⟩ (0 : Fin 2) * 5000 ≤ (i 0).val ∧ (i 0).val < win0_1.index ⟨(i 0).val / 5000, hlt⟩ (0 : Fin 2) * 5000 + 5000
    rw [e10]
    show (i 0).val / 5000 * 5000 ≤ (i 0).val ∧ (i 0).val < (i 0).val / 5000 * 5000 + 5000
    omega
  | ⟨1, _⟩ =>
    show win0_1.index ⟨(i 0).val / 5000, hlt⟩ (1 : Fin 2) * 200 ≤ (i 1).val ∧ (i 1).val < win0_1.index ⟨(i 0).val / 5000, hlt⟩ (1 : Fin 2) * 200 + 200
    rw [e11]
    omega

/-- The output array ends holding the whole stacked table with every row scaled to unit length. -/
theorem final0 (c : Dev nD) : (dat0 V c).arrAt 1 cfg0.N = G0 V c :=
  (dat0 V c).arrAt_eq_of_cover 1 (G0 V c) (fun t _ => flushed0 V c t) (cover0)

/-! ## Launch 1: a dense layer and the rectifier over the stacked table `main_v39`, block of 5000 rows by block -/

/-- What one grid point stores: the rectified layer of its block of rows. -/
theorem pay_dense1 (x0 : Vec Ideal S5000x200 .f32) (x1 : Vec Ideal S200x200 .bf16) (x2 : Vec Ideal S200 .f32) :
    k1_pay1 x0 x1 x2 = relu (dense x0 x1 (colBias x2)) := by
  unfold k1_pay1
  simp only [shapeCast_self]
  funext i
  show max (addf (matmul dot_S5000x200_S200x200_S5000x200_1_0_0_1_n_n none (truncf .bf16 x0 bitsLt_bf16_f32) x1 (constant S5000x200 .f32 0x00000000#32))
      (broadcastTo S5000x200 (shapeCast S1x200 x2 shapeCasts_S200_S1x200) broadcasts_S1x200_S5000x200) i) (Ideal.ofBits .f32 0x00000000#32)
    = max (dense x0 x1 (colBias x2) i) 0
  rw [vec_layer_any dot_S5000x200_S200x200_S5000x200_1_0_0_1_n_n rfl, Ideal.ofBits_zero_f32]
  rfl

/-- Where the windows' blocks sit at grid point `t`: the row window and the output window at block row `t`, the weight
    matrix and the bias whole. -/
theorem idx1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- The row window's block at point `t` is rows `5000 t, 5000 t + 1, …` of the stacked table. -/
theorem blk1_rows (c : Dev nD) (t : Fin cfg1.N) :
    RowsAgree (iblk1 V c 0 t : S5000x200.Idx → EReal) (V c main_v39 : S100000x200.Idx → EReal) (t.val * 5000) := by
  intro p P hP k
  obtain ⟨e00, e01, -⟩ := idx1 t
  unfold iblk1
  rw [View.read_apply]
  show (V c main_v39 : S100000x200.Idx → EReal) _ = (V c main_v39 : S100000x200.Idx → EReal) _
  refine congrArg _ (funext fun a => Fin.ext ?_)
  match a with
  | ⟨0, _⟩ => show win1_0.index t (0 : Fin 2) * 5000 + 1 * p.val = P.val; rw [e00]; omega
  | ⟨1, _⟩ => show win1_0.index t (1 : Fin 2) * 200 + 1 * k.val = k.val; rw [e01]; omega

/-- The weight window's block is the whole weight matrix at every point. -/
theorem blk1_w (c : Dev nD) (t : Fin cfg1.N) :
    (iblk1 V c 1 t : S200x200.Idx → EReal) = (V c main_v0 : S200x200.Idx → EReal) := by
  obtain ⟨-, -, e10, e11, -⟩ := idx1 t
  funext y
  unfold iblk1
  rw [View.read_apply]
  show (V c main_v0 : S200x200.Idx → EReal) _ = (V c main_v0 : S200x200.Idx → EReal) y
  refine congrArg _ (funext fun a => Fin.ext ?_)
  match a with
  | ⟨0, _⟩ => show win1_1.index t (0 : Fin 2) * 200 + 1 * (y 0).val = (y 0).val; rw [e10]; omega
  | ⟨1, _⟩ => show win1_1.index t (1 : Fin 2) * 200 + 1 * (y 1).val = (y 1).val; rw [e11]; omega

/-- The bias window's block is the whole bias vector at every point. -/
theorem blk1_b (c : Dev nD) (t : Fin cfg1.N) :
    (iblk1 V c 2 t : S200.Idx → EReal) = (V c main_arg3 : S200.Idx → EReal) := by
  obtain ⟨-, -, -, -, e2, -⟩ := idx1 t
  funext y
  unfold iblk1
  rw [View.read_apply]
  show (V c main_arg3 : S200.Idx → EReal) _ = (V c main_arg3 : S200.Idx → EReal) y
  refine congrArg _ (funext fun a => Fin.ext ?_)
  match a with
  | ⟨0, _⟩ => show win1_2.index t (0 : Fin 1) * 200 + 1 * (y 0).val = (y 0).val; rw [e2]; omega

/-- The output array after the launch: the rectified layer of the whole stacked table. -/
def G1 (c : Dev nD) : S100000x200.Idx → EReal :=
  relu (dense (V c main_v39 : S100000x200.Idx → EReal) (V c main_v0 : S200x200.Idx → EReal) (colBias (V c main_arg3 : S200.Idx → EReal)))

/-- What point `t` writes back is block `t` of `G1`: a layer's row depends on that row of its operand only. -/
theorem flushed1 (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero hz2]
  simp only [View.ld_unit_zero (S := S5000x200) hz2, View.ld_unit_zero (S := S200x200) hz2, View.ld_unit_zero (S := S200) hz1]
  rw [pay_dense1, blk1_w V c t, blk1_b V c t]
  obtain ⟨-, -, -, -, -, e30, e31⟩ := idx1 t
  have ht : t.val < 20 := lt_of_lt_of_eq t.isLt N_1
  funext j
  have h0 : (j 0).val < 5000 := (j 0).isLt
  have key := relu_rows (dense_rows (blk1_rows V c t) (V c main_v0 : S200x200.Idx → EReal) (colBias (V c main_arg3 : S200.Idx → EReal)))
    (j 0) (⟨t.val * 5000 + (j 0).val, by omega⟩ : Fin 100000) rfl (j 1)
  refine (congrArg _ (eq_ix2 (n0 := 5000) (n1 := 200) j)).trans (key.trans (congrArg (G1 V c) ?_))
  funext a
  apply Fin.ext
  match a with
  | ⟨0, _⟩ => show t.val * 5000 + (j 0).val = win1_3.index t (0 : Fin 2) * 5000 + 1 * (j 0).val; rw [e30]; omega
  | ⟨1, _⟩ => show (j 1).val = win1_3.index t (1 : Fin 2) * 200 + 1 * (j 1).val; rw [e31]; omega

/-- An index of the output array is in point `t`'s block iff each coordinate is in the block's range on its axis. -/
theorem mem_blk1 (t : Fin cfg1.N) (i : S100000x200.Idx) :
    i ∈ ((cfg1.win 3).blk t).view.set ↔ ∀ a : Fin 2, win1_3.index t a * S5000x200.size a ≤ (i a).val ∧ (i a).val < win1_3.index t a * S5000x200.size a + S5000x200.size a := by
  show i ∈ ((View.whole main_v40).slice (win1_3.rect t)).set ↔ _
  rw [View.set_slice_whole, Rect.mem_set_unit]
  exact Iff.rfl

/-- Every row of the output array is in the block of the point `row / 5000`. -/
theorem cover1 (i : S100000x200.Idx) : ∃ t : Fin cfg1.N, (cfg1.win 3).flush t = true ∧ i ∈ ((cfg1.win 3).blk t).view.set := by
  have hi0 : (i 0).val < 100000 := (i 0).isLt
  have hi1 : (i 1).val < 200 := (i 1).isLt
  have hlt : (i 0).val / 5000 < cfg1.N := by rw [show cfg1.N = 20 from N_1]; omega
  obtain ⟨-, -, -, -, -, e30, e31⟩ := idx1 ⟨(i 0).val / 5000, hlt⟩
  refine ⟨⟨(i 0).val / 5000, hlt⟩, flush1_3 _, ?_⟩
  rw [mem_blk1]
  intro a
  match a with
  | ⟨0, _⟩ =>
    show win1_3.index ⟨(i 0).val / 5000, hlt⟩ (0 : Fin 2) * 5000 ≤ (i 0).val ∧ (i 0).val < win1_3.index ⟨(i 0).val / 5000, hlt⟩ (0 : Fin 2) * 5000 + 5000
    rw [e30]
    show (i 0).val / 5000 * 5000 ≤ (i 0).val ∧ (i 0).val < (i 0).val / 5000 * 5000 + 5000
    omega
  | ⟨1, _⟩ =>
    show win1_3.index ⟨(i 0).val / 5000, hlt⟩ (1 : Fin 2) * 200 ≤ (i 1).val ∧ (i 1).val < win1_3.index ⟨(i 0).val / 5000, hlt⟩ (1 : Fin 2) * 200 + 200
    rw [e31]
    omega

/-- The output array ends holding the rectified layer of the whole stacked table. -/
theorem final1 (c : Dev nD) : (dat1 V c).arrAt 3 cfg1.N = G1 V c :=
  (dat1 V c).arrAt_eq_of_cover 3 (G1 V c) (fun t _ => flushed1 V c t) (cover1)

/-! ## Launch 2: a dense layer and the rectifier over the stacked table `main_v69`, block of 5000 rows by block -/

/-- What one grid point stores: the rectified layer of its block of rows. -/
theorem pay_dense2 (x0 : Vec Ideal S5000x200 .f32) (x1 : Vec Ideal S200x200 .bf16) (x2 : Vec Ideal S200 .f32) :
    k2_pay1 x0 x1 x2 = relu (dense x0 x1 (colBias x2)) := by
  unfold k2_pay1
  simp only [shapeCast_self]
  funext i
  show max (addf (matmul dot_S5000x200_S200x200_S5000x200_1_0_0_1_n_n none (truncf .bf16 x0 bitsLt_bf16_f32) x1 (constant S5000x200 .f32 0x00000000#32))
      (broadcastTo S5000x200 (shapeCast S1x200 x2 shapeCasts_S200_S1x200) broadcasts_S1x200_S5000x200) i) (Ideal.ofBits .f32 0x00000000#32)
    = max (dense x0 x1 (colBias x2) i) 0
  rw [vec_layer_any dot_S5000x200_S200x200_S5000x200_1_0_0_1_n_n rfl, Ideal.ofBits_zero_f32]
  rfl

/-- Where the windows' blocks sit at grid point `t`: the row window and the output window at block row `t`, the weight
    matrix and the bias whole. -/
theorem idx2 : ∀ t : Fin cfg2.N, win2_0.index t (0 : Fin 2) = t.val ∧ win2_0.index t (1 : Fin 2) = 0
    ∧ win2_1.index t (0 : Fin 2) = 0 ∧ win2_1.index t (1 : Fin 2) = 0 ∧ win2_2.index t (0 : Fin 1) = 0
    ∧ win2_3.index t (0 : Fin 2) = t.val ∧ win2_3.index t (1 : Fin 2) = 0 :=
  (by decide +kernel : ∀ t : Fin grid2.N, _)

/-- The row window's block at point `t` is rows `5000 t, 5000 t + 1, …` of the stacked table. -/
theorem blk2_rows (c : Dev nD) (t : Fin cfg2.N) :
    RowsAgree (iblk2 V c 0 t : S5000x200.Idx → EReal) (V c main_v69 : S100000x200.Idx → EReal) (t.val * 5000) := by
  intro p P hP k
  obtain ⟨e00, e01, -⟩ := idx2 t
  unfold iblk2
  rw [View.read_apply]
  show (V c main_v69 : S100000x200.Idx → EReal) _ = (V c main_v69 : S100000x200.Idx → EReal) _
  refine congrArg _ (funext fun a => Fin.ext ?_)
  match a with
  | ⟨0, _⟩ => show win2_0.index t (0 : Fin 2) * 5000 + 1 * p.val = P.val; rw [e00]; omega
  | ⟨1, _⟩ => show win2_0.index t (1 : Fin 2) * 200 + 1 * k.val = k.val; rw [e01]; omega

/-- The weight window's block is the whole weight matrix at every point. -/
theorem blk2_w (c : Dev nD) (t : Fin cfg2.N) :
    (iblk2 V c 1 t : S200x200.Idx → EReal) = (V c main_v0 : S200x200.Idx → EReal) := by
  obtain ⟨-, -, e10, e11, -⟩ := idx2 t
  funext y
  unfold iblk2
  rw [View.read_apply]
  show (V c main_v0 : S200x200.Idx → EReal) _ = (V c main_v0 : S200x200.Idx → EReal) y
  refine congrArg _ (funext fun a => Fin.ext ?_)
  match a with
  | ⟨0, _⟩ => show win2_1.index t (0 : Fin 2) * 200 + 1 * (y 0).val = (y 0).val; rw [e10]; omega
  | ⟨1, _⟩ => show win2_1.index t (1 : Fin 2) * 200 + 1 * (y 1).val = (y 1).val; rw [e11]; omega

/-- The bias window's block is the whole bias vector at every point. -/
theorem blk2_b (c : Dev nD) (t : Fin cfg2.N) :
    (iblk2 V c 2 t : S200.Idx → EReal) = (V c main_arg3 : S200.Idx → EReal) := by
  obtain ⟨-, -, -, -, e2, -⟩ := idx2 t
  funext y
  unfold iblk2
  rw [View.read_apply]
  show (V c main_arg3 : S200.Idx → EReal) _ = (V c main_arg3 : S200.Idx → EReal) y
  refine congrArg _ (funext fun a => Fin.ext ?_)
  match a with
  | ⟨0, _⟩ => show win2_2.index t (0 : Fin 1) * 200 + 1 * (y 0).val = (y 0).val; rw [e2]; omega

/-- The output array after the launch: the rectified layer of the whole stacked table. -/
def G2 (c : Dev nD) : S100000x200.Idx → EReal :=
  relu (dense (V c main_v69 : S100000x200.Idx → EReal) (V c main_v0 : S200x200.Idx → EReal) (colBias (V c main_arg3 : S200.Idx → EReal)))

/-- What point `t` writes back is block `t` of `G2`: a layer's row depends on that row of its operand only. -/
theorem flushed2 (c : Dev nD) (t : Fin cfg2.N) :
    (dat2 V c).flushed 3 t = ((cfg2.win 3).blk t).view.read (Elt Ideal) (G2 V c) := by
  show (cfg2.win 3).cut (grid2.coords t) ((dat2 V c).after 3 t) = _
  rw [after2_3]
  unfold out2_3
  rw [View.canon_unit_zero hz2]
  simp only [View.ld_unit_zero (S := S5000x200) hz2, View.ld_unit_zero (S := S200x200) hz2, View.ld_unit_zero (S := S200) hz1]
  rw [pay_dense2, blk2_w V c t, blk2_b V c t]
  obtain ⟨-, -, -, -, -, e30, e31⟩ := idx2 t
  have ht : t.val < 20 := lt_of_lt_of_eq t.isLt N_2
  funext j
  have h0 : (j 0).val < 5000 := (j 0).isLt
  have key := relu_rows (dense_rows (blk2_rows V c t) (V c main_v0 : S200x200.Idx → EReal) (colBias (V c main_arg3 : S200.Idx → EReal)))
    (j 0) (⟨t.val * 5000 + (j 0).val, by omega⟩ : Fin 100000) rfl (j 1)
  refine (congrArg _ (eq_ix2 (n0 := 5000) (n1 := 200) j)).trans (key.trans (congrArg (G2 V c) ?_))
  funext a
  apply Fin.ext
  match a with
  | ⟨0, _⟩ => show t.val * 5000 + (j 0).val = win2_3.index t (0 : Fin 2) * 5000 + 1 * (j 0).val; rw [e30]; omega
  | ⟨1, _⟩ => show (j 1).val = win2_3.index t (1 : Fin 2) * 200 + 1 * (j 1).val; rw [e31]; omega

/-- An index of the output array is in point `t`'s block iff each coordinate is in the block's range on its axis. -/
theorem mem_blk2 (t : Fin cfg2.N) (i : S100000x200.Idx) :
    i ∈ ((cfg2.win 3).blk t).view.set ↔ ∀ a : Fin 2, win2_3.index t a * S5000x200.size a ≤ (i a).val ∧ (i a).val < win2_3.index t a * S5000x200.size a + S5000x200.size a := by
  show i ∈ ((View.whole main_v70).slice (win2_3.rect t)).set ↔ _
  rw [View.set_slice_whole, Rect.mem_set_unit]
  exact Iff.rfl

/-- Every row of the output array is in the block of the point `row / 5000`. -/
theorem cover2 (i : S100000x200.Idx) : ∃ t : Fin cfg2.N, (cfg2.win 3).flush t = true ∧ i ∈ ((cfg2.win 3).blk t).view.set := by
  have hi0 : (i 0).val < 100000 := (i 0).isLt
  have hi1 : (i 1).val < 200 := (i 1).isLt
  have hlt : (i 0).val / 5000 < cfg2.N := by rw [show cfg2.N = 20 from N_2]; omega
  obtain ⟨-, -, -, -, -, e30, e31⟩ := idx2 ⟨(i 0).val / 5000, hlt⟩
  refine ⟨⟨(i 0).val / 5000, hlt⟩, flush2_3 _, ?_⟩
  rw [mem_blk2]
  intro a
  match a with
  | ⟨0, _⟩ =>
    show win2_3.index ⟨(i 0).val / 5000, hlt⟩ (0 : Fin 2) * 5000 ≤ (i 0).val ∧ (i 0).val < win2_3.index ⟨(i 0).val / 5000, hlt⟩ (0 : Fin 2) * 5000 + 5000
    rw [e30]
    show (i 0).val / 5000 * 5000 ≤ (i 0).val ∧ (i 0).val < (i 0).val / 5000 * 5000 + 5000
    omega
  | ⟨1, _⟩ =>
    show win2_3.index ⟨(i 0).val / 5000, hlt⟩ (1 : Fin 2) * 200 ≤ (i 1).val ∧ (i 1).val < win2_3.index ⟨(i 0).val / 5000, hlt⟩ (1 : Fin 2) * 200 + 200
    rw [e31]
    omega

/-- The output array ends holding the rectified layer of the whole stacked table. -/
theorem final2 (c : Dev nD) : (dat2 V c).arrAt 3 cfg2.N = G2 V c :=
  (dat2 V c).arrAt_eq_of_cover 3 (G2 V c) (fun t _ => flushed2 V c t) (cover2)

end Cert.Gcn.Regions

end
-- ==== Proof.Aggregate.lean ====
/-
  One round of message passing over a graph's edges, on the extended reals, as the two programs spell it.

  For a node table `x : [50000, 200]`, edge sources `src` and targets `tgt` (`800000` of each) and a weight per edge
  `ew : [800000, 1]`, the round gathers row `src e` of the table for every edge `e` (a negative source counted from the
  end of the table), scales it by the edge's weight and adds it into row `tgt e` of a zero table. The two programs
  spell the round with the same host operations; they differ only in the float format the table is held in, which
  the extended reals do not see, so the two spellings are one function (`aggK_eq`). The round is never opened: it is
  carried as one function of its operands.

  `srcOf` and `tgtOf` read the two rows of an edge list `[2, 800000]` as vectors.
-/
import proofs.«153074_j7610682048666_2_alg».proof.Proof.Gen.KernelIdeal
import proofs.«153074_j7610682048666_2_alg».proof.Proof.Gen.ReferenceIdeal
import Idealize.ShloMosaic.Lib.ValueIdx

noncomputable section

namespace Cert.Gcn

open Idealize.ShloMosaic

/-- A node table, one row of 200 features per node. -/
abbrev Nodes : Shape := ⟨2, ![50000, 200]⟩
/-- Both branches' tables stacked. -/
abbrev Stacked : Shape := ⟨2, ![100000, 200]⟩
/-- One entry per edge. -/
abbrev Edges : Shape := ⟨1, ![800000]⟩
/-- One weight per edge, as a column. -/
abbrev EdgeCol : Shape := ⟨2, ![800000, 1]⟩
/-- An edge list: row 0 the sources, row 1 the targets. -/
abbrev EdgeList : Shape := ⟨2, ![2, 800000]⟩
/-- The layer's weight matrix and bias vector. -/
abbrev Weights : Shape := ⟨2, ![200, 200]⟩
abbrev Bias : Shape := ⟨1, ![200]⟩

section Kernel
open Cert.KernelIdeal Cert.KernelIdeal.Gen

/-- The sources of an edge list: its row 0 as a vector. -/
def srcOf (e : IVec EdgeList 32) : IVec Edges 32 :=
  shapeCast S800000 (extractStridedSlice S1x800000 ![0, 0] e slices_S2x800000_S1x800000_0_0) shapeCasts_S1x800000_S800000

/-- The targets of an edge list: its row 1 as a vector. -/
def tgtOf (e : IVec EdgeList 32) : IVec Edges 32 :=
  shapeCast S800000 (extractStridedSlice S1x800000 ![1, 0] e slices_S2x800000_S1x800000_1_0) shapeCasts_S1x800000_S800000

/-- One round of message passing as the kernel's program spells it, the table held in the narrow format. -/
def aggK (x : FVec Ideal Nodes .bf16) (src tgt : IVec Edges 32) (ew : FVec Ideal EdgeCol .f32) : FVec Ideal Nodes .f32 :=
  Host.scatterAdd scatter_S50000x200_S800000x1_S800000x200_1_0_0_1
    (broadcastInDim S50000x200 ![] bcast_S_S50000x200 (constant (F := Ideal) S_ .f32 0x00000000#32))
    (broadcastInDim S800000x1 ![0] bcast_S800000_S800000x1_0 tgt)
    (mulf (extf .f32 (Host.gather gather_S50000x200_S800000x1_S800000x200_1_0_n_n_0_1_1200 x
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))) bitsLt_bf16_f32)
      (broadcastInDim S800000x200 ![0, 1] bcast_S800000x1_S800000x200_0_1 ew))

/-- The first branch's half of a stacked table: its rows from 0. -/
def sliceLo (X : Stacked.Idx → EReal) : Nodes.Idx → EReal :=
  extractStridedSlice S50000x200 ![0, 0] X slices_S100000x200_S50000x200_0_0

/-- The second branch's half: its rows from 50000. -/
def sliceHi (X : Stacked.Idx → EReal) : Nodes.Idx → EReal :=
  extractStridedSlice S50000x200 ![50000, 0] X slices_S100000x200_S50000x200_50000_0

/-- Two tables stacked, the first on top. -/
def stack (a b : Nodes.Idx → EReal) : Stacked.Idx → EReal :=
  concatenate S100000x200 0 [⟨S50000x200, a⟩, ⟨S50000x200, b⟩] concatenates_S50000x200_S50000x200_S100000x200_d0

end Kernel

section Reference
open Cert.ReferenceIdeal Cert.ReferenceIdeal.Gen

/-- The same round as the reference program spells it, the table held in the wide format. -/
def aggR (x : FVec Ideal Nodes .f32) (src tgt : IVec Edges 32) (ew : FVec Ideal EdgeCol .f32) : FVec Ideal Nodes .f32 :=
  Host.scatterAdd scatter_S50000x200_S800000x1_S800000x200_1_0_0_1
    (broadcastInDim S50000x200 ![] bcast_S_S50000x200 (constant (F := Ideal) S_ .f32 0x00000000#32))
    (broadcastInDim S800000x1 ![0] bcast_S800000_S800000x1_0 tgt)
    (mulf (Host.gather gather_S50000x200_S800000x1_S800000x200_1_0_n_n_0_1_1200 x
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
      (broadcastInDim S800000x200 ![0, 1] bcast_S800000x1_S800000x200_0_1 ew))

end Reference

/-- The two spellings are one function: a change of float format is the identity on extended reals. -/
theorem aggK_eq (x : Nodes.Idx → EReal) (src tgt : IVec Edges 32) (ew : EdgeCol.Idx → EReal) :
    aggK x src tgt ew = aggR x src tgt ew := rfl

end Cert.Gcn

end
-- ==== Proof.KernelHost.lean ====
/-
  The host operations of the idealized kernel program, stretch by stretch, as functions of the buffer contents each
  stretch starts from.

  The program runs four stretches of host operations around its three kernel launches. The first stacks the two
  embedding tables, narrows the weight matrix and reads the two edge lists' rows as vectors. The second and the third
  each split a stacked table into its two halves, run one round of message passing on each half over that branch's
  edges, and stack the two results for the next dense layer; they touch none of the weight matrix, the bias, the
  edge vectors and the edge weights. The last splits the final stacked table into the two results.
-/
import proofs.«153074_j7610682048666_2_alg».proof.Proof.Gen.KernelIdeal.Launch
import proofs.«153074_j7610682048666_2_alg».proof.Proof.Aggregate
import Idealize.ShloMosaic.Lib.StableHlo.Run

set_option maxRecDepth 16384

noncomputable section

namespace Cert.Gcn.KernelHost

open Cert.KernelIdeal Cert.KernelIdeal.Gen Cert.Gcn
open Idealize.ShloMosaic Idealize.ShloMosaic.TcCoe Idealize.ShloMosaic.StableHlo

variable (W : Valuation τ sig (Elt Ideal))

/-! ## The first stretch: the operands of the first launch and of every later stretch -/

theorem first_stack : after (hostOps0 (F := Ideal)) W (Proc.devRef .tc main_v9) = stack (W (Proc.devRef .tc main_arg0)) (W (Proc.devRef .tc main_arg1)) := by
  dsimp only [hostOps0]; after_results; rfl
theorem first_weights : after (hostOps0 (F := Ideal)) W (Proc.devRef .tc main_v0) = (W (Proc.devRef .tc main_arg2) : Weights.Idx → EReal) := by
  dsimp only [hostOps0]; after_results; rfl
theorem first_src0 : after (hostOps0 (F := Ideal)) W (Proc.devRef .tc main_v2) = srcOf (W (Proc.devRef .tc main_arg4)) := by
  dsimp only [hostOps0]; after_results; rfl
theorem first_tgt0 : after (hostOps0 (F := Ideal)) W (Proc.devRef .tc main_v4) = tgtOf (W (Proc.devRef .tc main_arg4)) := by
  dsimp only [hostOps0]; after_results; rfl
theorem first_src1 : after (hostOps0 (F := Ideal)) W (Proc.devRef .tc main_v6) = srcOf (W (Proc.devRef .tc main_arg5)) := by
  dsimp only [hostOps0]; after_results; rfl
theorem first_tgt1 : after (hostOps0 (F := Ideal)) W (Proc.devRef .tc main_v8) = tgtOf (W (Proc.devRef .tc main_arg5)) := by
  dsimp only [hostOps0]; after_results; rfl
theorem first_bias : after (hostOps0 (F := Ideal)) W (Proc.devRef .tc main_arg3) = W (Proc.devRef .tc main_arg3) := by
  dsimp only [hostOps0]; after_results
theorem first_ew0 : after (hostOps0 (F := Ideal)) W (Proc.devRef .tc main_arg6) = W (Proc.devRef .tc main_arg6) := by
  dsimp only [hostOps0]; after_results
theorem first_ew1 : after (hostOps0 (F := Ideal)) W (Proc.devRef .tc main_arg7) = W (Proc.devRef .tc main_arg7) := by
  dsimp only [hostOps0]; after_results

/-! ## The second stretch: message passing on the scaled tables -/

theorem second_stack : after (hostOps1 (F := Ideal)) W (Proc.devRef .tc main_v39)
    = stack (aggK (sliceLo (W (Proc.devRef .tc main_v10))) (W (Proc.devRef .tc main_v2)) (W (Proc.devRef .tc main_v4)) (W (Proc.devRef .tc main_arg6)))
        (aggK (sliceHi (W (Proc.devRef .tc main_v10))) (W (Proc.devRef .tc main_v6)) (W (Proc.devRef .tc main_v8)) (W (Proc.devRef .tc main_arg7))) := by
  dsimp only [hostOps1]; after_results_simp; rfl
theorem second_keeps_main_v0 : after (hostOps1 (F := Ideal)) W (Proc.devRef .tc main_v0) = W (Proc.devRef .tc main_v0) := by
  dsimp only [hostOps1]; after_results_simp
theorem second_keeps_main_arg3 : after (hostOps1 (F := Ideal)) W (Proc.devRef .tc main_arg3) = W (Proc.devRef .tc main_arg3) := by
  dsimp only [hostOps1]; after_results_simp
theorem second_keeps_main_v2 : after (hostOps1 (F := Ideal)) W (Proc.devRef .tc main_v2) = W (Proc.devRef .tc main_v2) := by
  dsimp only [hostOps1]; after_results_simp
theorem second_keeps_main_v4 : after (hostOps1 (F := Ideal)) W (Proc.devRef .tc main_v4) = W (Proc.devRef .tc main_v4) := by
  dsimp only [hostOps1]; after_results_simp
theorem second_keeps_main_v6 : after (hostOps1 (F := Ideal)) W (Proc.devRef .tc main_v6) = W (Proc.devRef .tc main_v6) := by
  dsimp only [hostOps1]; after_results_simp
theorem second_keeps_main_v8 : after (hostOps1 (F := Ideal)) W (Proc.devRef .tc main_v8) = W (Proc.devRef .tc main_v8) := by
  dsimp only [hostOps1]; after_results_simp
theorem second_keeps_main_arg6 : after (hostOps1 (F := Ideal)) W (Proc.devRef .tc main_arg6) = W (Proc.devRef .tc main_arg6) := by
  dsimp only [hostOps1]; after_results_simp
theorem second_keeps_main_arg7 : after (hostOps1 (F := Ideal)) W (Proc.devRef .tc main_arg7) = W (Proc.devRef .tc main_arg7) := by
  dsimp only [hostOps1]; after_results_simp

/-! ## The third stretch: message passing on the first layer's output -/

theorem third_stack : after (hostOps2 (F := Ideal)) W (Proc.devRef .tc main_v69)
    = stack (aggK (sliceLo (W (Proc.devRef .tc main_v40))) (W (Proc.devRef .tc main_v2)) (W (Proc.devRef .tc main_v4)) (W (Proc.devRef .tc main_arg6)))
        (aggK (sliceHi (W (Proc.devRef .tc main_v40))) (W (Proc.devRef .tc main_v6)) (W (Proc.devRef .tc main_v8)) (W (Proc.devRef .tc main_arg7))) := by
  dsimp only [hostOps2]; after_results_simp; rfl
theorem third_keeps_main_v0 : after (hostOps2 (F := Ideal)) W (Proc.devRef .tc main_v0) = W (Proc.devRef .tc main_v0) := by
  dsimp only [hostOps2]; after_results_simp
theorem third_keeps_main_arg3 : after (hostOps2 (F := Ideal)) W (Proc.devRef .tc main_arg3) = W (Proc.devRef .tc main_arg3) := by
  dsimp only [hostOps2]; after_results_simp

/-! ## The last stretch: the two results -/

theorem last_lo : after (hostOps3 (F := Ideal)) W (Proc.devRef .tc main_v71) = sliceLo (W (Proc.devRef .tc main_v70)) := by
  dsimp only [hostOps3]; after_results; rfl
theorem last_hi : after (hostOps3 (F := Ideal)) W (Proc.devRef .tc main_v72) = sliceHi (W (Proc.devRef .tc main_v70)) := by
  dsimp only [hostOps3]; after_results; rfl

end Cert.Gcn.KernelHost

end
-- ==== Proof.Spec.lean ====
/-
  One branch of the two-layer graph network on the extended reals, and how the stacked computation splits into its
  two branches.

  A branch takes an embedding table, an edge list, a weight per edge, a weight matrix and a bias. It scales every
  row of the table to unit Euclidean length (the length floored at the value of the literal both programs share), then
  twice: one round of message passing over the edges, a dense layer, the rectifier (`branch`).

  Scaling rows, a dense layer and the rectifier all act row by row. So applied to two tables stacked, each gives the
  two results stacked: the top half of the result is the computation on the top table, the bottom half the computation
  on the bottom table (`sliceLo_norm` … `sliceHi_layer`).
-/
import proofs.«153074_j7610682048666_2_alg».proof.Proof.Aggregate
import proofs.«153074_j7610682048666_2_alg».proof.Proof.LibRowBlocks

noncomputable section

namespace Cert.Gcn

open Idealize.ShloMosaic Idealize.ShloMosaic.ValueIdx
open Cert.LayerForms Cert.DenseLayer Cert.RowNorm Cert.RowBlocks

/-- The floor under a row's length: the value of the literal both programs share. -/
abbrev floorEps : EReal := Ideal.ofBits .f32 0x2B8CBCCC#32

/-- One message-passing round followed by a dense layer and the rectifier. -/
def layer (x : Nodes.Idx → EReal) (e : IVec EdgeList 32) (ew : EdgeCol.Idx → EReal) (w : Weights.Idx → EReal) (b : Bias.Idx → EReal) :
    Nodes.Idx → EReal :=
  relu (dense (aggR x (srcOf e) (tgtOf e) ew) w (colBias b))

/-- One branch of the network: rows scaled to unit length, then two layers. -/
def branch (emb : Nodes.Idx → EReal) (e : IVec EdgeList 32) (ew : EdgeCol.Idx → EReal) (w : Weights.Idx → EReal) (b : Bias.Idx → EReal) :
    Nodes.Idx → EReal :=
  layer (layer (rowNorm emb floorEps) e ew w b) e ew w b

section Halves
open Cert.KernelIdeal Cert.KernelIdeal.Gen

theorem stack_rows_lo (a b : Nodes.Idx → EReal) : RowsAgree a (stack a b) 0 :=
  concat_rows_lo a b concatenates_S50000x200_S50000x200_S100000x200_d0

theorem stack_rows_hi (a b : Nodes.Idx → EReal) : RowsAgree b (stack a b) 50000 :=
  concat_rows_hi a b concatenates_S50000x200_S50000x200_S100000x200_d0

/-- The top half of the scaled stack is the scaled top table. -/
theorem sliceLo_norm (a b : Nodes.Idx → EReal) (ε : EReal) : sliceLo (rowNorm (stack a b) ε) = rowNorm a ε :=
  slice_of_rows _ _ slices_S100000x200_S50000x200_0_0 (by norm_num) (rowNorm_rows (stack_rows_lo a b) ε)

/-- The bottom half of the scaled stack is the scaled bottom table. -/
theorem sliceHi_norm (a b : Nodes.Idx → EReal) (ε : EReal) : sliceHi (rowNorm (stack a b) ε) = rowNorm b ε :=
  slice_of_rows _ _ slices_S100000x200_S50000x200_50000_0 (by norm_num) (rowNorm_rows (stack_rows_hi a b) ε)

/-- The top half of the rectified layer of a stack is the rectified layer of the top table. -/
theorem sliceLo_layer (h₁ h₂ : Nodes.Idx → EReal) (w : Weights.Idx → EReal) (b : Fin 200 → EReal) :
    sliceLo (relu (dense (stack h₁ h₂) w b)) = relu (dense h₁ w b) :=
  slice_of_rows _ _ slices_S100000x200_S50000x200_0_0 (by norm_num) (relu_rows (dense_rows (stack_rows_lo h₁ h₂) w b))

/-- The bottom half of the rectified layer of a stack is the rectified layer of the bottom table. -/
theorem sliceHi_layer (h₁ h₂ : Nodes.Idx → EReal) (w : Weights.Idx → EReal) (b : Fin 200 → EReal) :
    sliceHi (relu (dense (stack h₁ h₂) w b)) = relu (dense h₂ w b) :=
  slice_of_rows _ _ slices_S100000x200_S50000x200_50000_0 (by norm_num) (relu_rows (dense_rows (stack_rows_hi h₁ h₂) w b))

end Halves

end Cert.Gcn

end
-- ==== Proof.KernelValue.lean ====
/-
  The idealized kernel program's two results as the network's branches.

  The buffer contents at the program's boundaries are a fold: host stretch, launch, host stretch, launch, host stretch,
  launch, host stretch. Read through that fold, the first launch's output is the two embedding tables stacked and
  scaled row by row; each later launch's output is a rectified dense layer of the stacked message-passing results of
  the two halves of the launch before it (`layer2`); and a result is a half of the last launch's output. Because
  scaling, a dense layer and the rectifier act row by row, a half of a stacked layer is the layer of that half
  (`sliceLo_layer2`, `sliceHi_layer2`), so each result is its own branch of the network, computed as if alone.
-/
import proofs.«153074_j7610682048666_2_alg».proof.Proof.KernelRegions
import proofs.«153074_j7610682048666_2_alg».proof.Proof.KernelHost
import proofs.«153074_j7610682048666_2_alg».proof.Proof.Spec

set_option maxRecDepth 16384

noncomputable section

namespace Cert.Gcn.KernelValue

open Cert.KernelIdeal Cert.KernelIdeal.Gen Cert.Gcn Cert.Gcn.KernelHost
open Idealize.ShloMosaic Idealize.ShloMosaic.TcCoe Idealize.SL.Sem
open Idealize.ShloMosaic.Pipeline (Dat)
open Cert.LayerForms Cert.DenseLayer Cert.RowNorm

/-- A layer over both branches at once: each half of the stacked table goes through its own branch's message passing,
    the two results are stacked, and one dense layer and the rectifier run over the stack. -/
def layer2 (X : Stacked.Idx → EReal) (e₀ e₁ : IVec EdgeList 32) (ew₀ ew₁ : EdgeCol.Idx → EReal)
    (w : Weights.Idx → EReal) (b : Bias.Idx → EReal) : Stacked.Idx → EReal :=
  relu (dense (stack (aggK (sliceLo X) (srcOf e₀) (tgtOf e₀) ew₀) (aggK (sliceHi X) (srcOf e₁) (tgtOf e₁) ew₁)) w (colBias b))

/-- The top half of a stacked layer is the first branch's layer of the top half. -/
theorem sliceLo_layer2 (X : Stacked.Idx → EReal) (e₀ e₁ : IVec EdgeList 32) (ew₀ ew₁ : EdgeCol.Idx → EReal)
    (w : Weights.Idx → EReal) (b : Bias.Idx → EReal) :
    sliceLo (layer2 X e₀ e₁ ew₀ ew₁ w b) = layer (sliceLo X) e₀ ew₀ w b := by
  unfold layer2 layer
  rw [sliceLo_layer, aggK_eq]

/-- The bottom half of a stacked layer is the second branch's layer of the bottom half. -/
theorem sliceHi_layer2 (X : Stacked.Idx → EReal) (e₀ e₁ : IVec EdgeList 32) (ew₀ ew₁ : EdgeCol.Idx → EReal)
    (w : Weights.Idx → EReal) (b : Bias.Idx → EReal) :
    sliceHi (layer2 X e₀ e₁ ew₀ ew₁ w b) = layer (sliceHi X) e₁ ew₁ w b := by
  unfold layer2 layer
  rw [sliceHi_layer, aggK_eq]

variable (m : (ℓ : Loc nD τ sig) → Buf (Elt Ideal) ℓ) (ρ : Dev nD → PrngReg) (c : Dev nD)

/-- The buffers no launch and no later stretch writes, at what the first stretch made of the arguments: the weight
    matrix, the bias, the four edge vectors and the two edge-weight columns. -/
def Sides (W : Valuation τ sig (Elt Ideal)) : Prop :=
  (W (Proc.devRef .tc main_v0) : Weights.Idx → EReal) = (m ((c : Thread nD τ).loc main_arg2))
  ∧ W (Proc.devRef .tc main_arg3) = (m ((c : Thread nD τ).loc main_arg3))
  ∧ W (Proc.devRef .tc main_v2) = srcOf (m ((c : Thread nD τ).loc main_arg4))
  ∧ W (Proc.devRef .tc main_v4) = tgtOf (m ((c : Thread nD τ).loc main_arg4))
  ∧ W (Proc.devRef .tc main_v6) = srcOf (m ((c : Thread nD τ).loc main_arg5))
  ∧ W (Proc.devRef .tc main_v8) = tgtOf (m ((c : Thread nD τ).loc main_arg5))
  ∧ W (Proc.devRef .tc main_arg6) = (m ((c : Thread nD τ).loc main_arg6))
  ∧ W (Proc.devRef .tc main_arg7) = (m ((c : Thread nD τ).loc main_arg7))

theorem sides1 : Sides m c (W1 m ρ c) :=
  ⟨first_weights (W0 m ρ c), first_bias (W0 m ρ c), first_src0 (W0 m ρ c), first_tgt0 (W0 m ρ c), first_src1 (W0 m ρ c),
    first_tgt1 (W0 m ρ c), first_ew0 (W0 m ρ c), first_ew1 (W0 m ρ c)⟩

theorem sides2 : Sides m c (W2 m ρ c) := by
  obtain ⟨h0, h1, h2, h3, h4, h5, h6, h7⟩ := sides1 m ρ c
  exact ⟨(W2_of_ne m ρ c main_v0 (by decide)).trans h0, (W2_of_ne m ρ c main_arg3 (by decide)).trans h1,
    (W2_of_ne m ρ c main_v2 (by decide)).trans h2, (W2_of_ne m ρ c main_v4 (by decide)).trans h3,
    (W2_of_ne m ρ c main_v6 (by decide)).trans h4, (W2_of_ne m ρ c main_v8 (by decide)).trans h5,
    (W2_of_ne m ρ c main_arg6 (by decide)).trans h6, (W2_of_ne m ρ c main_arg7 (by decide)).trans h7⟩

theorem sides3 : Sides m c (W3 m ρ c) := by
  obtain ⟨h0, h1, h2, h3, h4, h5, h6, h7⟩ := sides2 m ρ c
  exact ⟨(second_keeps_main_v0 (W2 m ρ c)).trans h0, (second_keeps_main_arg3 (W2 m ρ c)).trans h1,
    (second_keeps_main_v2 (W2 m ρ c)).trans h2, (second_keeps_main_v4 (W2 m ρ c)).trans h3,
    (second_keeps_main_v6 (W2 m ρ c)).trans h4, (second_keeps_main_v8 (W2 m ρ c)).trans h5,
    (second_keeps_main_arg6 (W2 m ρ c)).trans h6, (second_keeps_main_arg7 (W2 m ρ c)).trans h7⟩

theorem sides4 : Sides m c (W4 m ρ c) := by
  obtain ⟨h0, h1, h2, h3, h4, h5, h6, h7⟩ := sides3 m ρ c
  exact ⟨((W4_arr m ρ c 1).trans (((dat1 (V3 m ρ) c).arrAt_in 1 rfl _).trans (A_eq1 (V3 m ρ) c 1))).trans h0,
    ((W4_arr m ρ c 2).trans (((dat1 (V3 m ρ) c).arrAt_in 2 rfl _).trans (A_eq1 (V3 m ρ) c 2))).trans h1,
    (W4_of_ne m ρ c main_v2 (by decide)).trans h2, (W4_of_ne m ρ c main_v4 (by decide)).trans h3,
    (W4_of_ne m ρ c main_v6 (by decide)).trans h4, (W4_of_ne m ρ c main_v8 (by decide)).trans h5,
    (W4_of_ne m ρ c main_arg6 (by decide)).trans h6, (W4_of_ne m ρ c main_arg7 (by decide)).trans h7⟩

/-- After the first launch the scaled table: the two embedding tables stacked, every row at unit length. -/
theorem table0 : (W2 m ρ c (Proc.devRef .tc main_v10) : Stacked.Idx → EReal)
    = rowNorm (stack (m ((c : Thread nD τ).loc main_arg0)) (m ((c : Thread nD τ).loc main_arg1))) floorEps := by
  refine (W2_arr m ρ c 1).trans ((Regions.final0 (V1 m ρ) c).trans ?_)
  unfold Regions.G0
  rw [show (V1 m ρ c main_v9 : Stacked.Idx → EReal) = stack (m ((c : Thread nD τ).loc main_arg0)) (m ((c : Thread nD τ).loc main_arg1)) from first_stack (W0 m ρ c)]

/-- After the second launch: the stacked layer of the first launch's output. -/
theorem table1 : (W4 m ρ c (Proc.devRef .tc main_v40) : Stacked.Idx → EReal)
    = layer2 (W2 m ρ c (Proc.devRef .tc main_v10)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3)) := by
  obtain ⟨-, -, k2, k4, k6, k8, k6', k7'⟩ := sides2 m ρ c
  obtain ⟨j0, j3, -⟩ := sides3 m ρ c
  refine (W4_arr m ρ c 3).trans ((Regions.final1 (V3 m ρ) c).trans ?_)
  unfold Regions.G1 layer2
  rw [show (V3 m ρ c main_v39 : Stacked.Idx → EReal) = _ from second_stack (W2 m ρ c),
    show (V3 m ρ c main_v0 : Weights.Idx → EReal) = _ from j0,
    show (V3 m ρ c main_arg3 : Bias.Idx → EReal) = _ from j3, k2, k4, k6, k8, k6', k7']

/-- After the third launch: the stacked layer of the second launch's output. -/
theorem table2 : (W6 m ρ c (Proc.devRef .tc main_v70) : Stacked.Idx → EReal)
    = layer2 (W4 m ρ c (Proc.devRef .tc main_v40)) (m ((c : Thread nD τ).loc main_arg4)) (m ((c : Thread nD τ).loc main_arg5)) (m ((c : Thread nD τ).loc main_arg6)) (m ((c : Thread nD τ).loc main_arg7)) (m ((c : Thread nD τ).loc main_arg2)) (m ((c : Thread nD τ).loc main_arg3)) := by
  obtain ⟨i0, i3, k2, k4, k6, k8, k6', k7'⟩ := sides4 m ρ c
  have j0 : (W5 m ρ c (Proc.devRef .tc main_v0) : Weights.Idx → EReal) = (m ((c : Thread nD τ).loc main_arg2)) := (third_keeps_main_v0 (W4 m ρ c)).trans i0
  have j3 : W5 m ρ c (Proc.devRef .tc main_arg3) = (m ((c : Thread nD τ).loc main_arg3)) := (third_keeps_main_arg3 (W4 m ρ c)).trans i3
  refine (W6_arr m ρ c 3).trans ((Regions.final2 (V5 m ρ) c).trans ?_)
  unfold Regions.G2 layer2
  rw [show (V5 m ρ c main_v69 : Stacked.Idx → EReal) = _ from third_stack (W4 m ρ c),
    show (V5 m ρ c main_v0 : Weights.Idx → EReal) = _ from j0,
    show (V5 m ρ c main_arg3 : Bias.Idx → EReal) = _ from j3, k2, k4, k6, k8, k6', k7']

/-- The first result: the first branch of the network on the first embedding table, its edges and their weights. -/
theorem result_lo : (W7 m ρ c (Proc.devRef .tc main_v71) : Nodes.Idx → EReal)
    = branch (m ((c : Thread nD τ).loc main_arg0)) (m ((c : Thread nD τ).loc main_arg4)) (m ((c : Thread nD τ).loc main_arg6)) (m ((c : Thread nD τ).loc main_arg2)) (m ((c : Thread nD τ).loc main_arg3)) := by
  refine (last_lo (W6 m ρ c)).trans ?_
  rw [table2 m ρ c, table1 m ρ c, table0 m ρ c, sliceLo_layer2, sliceLo_layer2, sliceLo_norm]
  rfl

/-- The second result: the second branch on the second embedding table, its edges and their weights. -/
theorem result_hi : (W7 m ρ c (Proc.devRef .tc main_v72) : Nodes.Idx → EReal)
    = branch (m ((c : Thread nD τ).loc main_arg1)) (m ((c : Thread nD τ).loc main_arg5)) (m ((c : Thread nD τ).loc main_arg7)) (m ((c : Thread nD τ).loc main_arg2)) (m ((c : Thread nD τ).loc main_arg3)) := by
  refine (last_hi (W6 m ρ c)).trans ?_
  rw [table2 m ρ c, table1 m ρ c, table0 m ρ c, sliceHi_layer2, sliceHi_layer2, sliceHi_norm]
  rfl

end Cert.Gcn.KernelValue

end
-- ==== Proof.ReferenceValue.lean ====
/-
  The reference program's two results as the network's branches.

  The reference computes each branch by itself with host operations only: the row scaling in its host spelling, then
  twice a message-passing round, a general dot product with the weight matrix, the bias broadcast over the rows and a
  maximum with zero. Its run's term for a result is therefore `branch` of that branch's arguments, once the scaling
  and each layer are read as the arrays they are.
-/
import proofs.«153074_j7610682048666_2_alg».proof.Proof.Gen.ReferenceIdeal.Run
import proofs.«153074_j7610682048666_2_alg».proof.Proof.Spec

set_option maxRecDepth 16384

noncomputable section

namespace Cert.Gcn.RefValue

open Cert.ReferenceIdeal Cert.ReferenceIdeal.Gen Cert.Gcn
open Idealize.ShloMosaic
open Cert.LayerForms Cert.DenseLayer Cert.RowNorm

/-- A layer of the reference after its message-passing round: the dot product, the bias, the rectifier. -/
theorem ref_layer (h : FVec Ideal S50000x200 .f32) (w : FVec Ideal S200x200 .f32) (b : FVec Ideal S200 .f32) :
    maximumf (addf (Host.dotGeneral dot_S50000x200_S200x200_S50000x200_1_0_0_1_n_n none h w)
        (broadcastInDim S50000x200 ![0, 1] bcast_S1x200_S50000x200_0_1 (broadcastInDim S1x200 ![1] bcast_S200_S1x200_1 b)))
        (broadcastInDim S50000x200 ![] bcast_S_S50000x200 (constant (F := Ideal) S_ .f32 0x00000000#32))
      = relu (dense h w (colBias b)) := by
  rw [host_layer dot_S50000x200_S200x200_S50000x200_1_0_0_1_n_n rfl, host_relu]

/-- The reference's row scaling. -/
theorem ref_norm (emb : FVec Ideal S50000x200 .f32) :
    Host.divf emb (broadcastInDim S50000x200 ![0, 1] bcast_S50000x1_S50000x200_0_1 (maximumf (Host.sqrt (broadcastInDim S50000x1 ![0] bcast_S50000_S50000x1_0
        (Host.reduceAdd (mulf emb emb) (constant (F := Ideal) S_ .f32 0x00000000#32) reducesTo_S50000x200_S50000_d1 h_S_)))
        (broadcastInDim S50000x1 ![] bcast_S_S50000x1 (constant (F := Ideal) S_ .f32 0x2B8CBCCC#32))))
      = rowNorm emb floorEps :=
  host_norm emb 0x2B8CBCCC#32 reducesTo_S50000x200_S50000_d1 (by decide) h_S_ bcast_S50000_S50000x1_0 bcast_S_S50000x1 bcast_S50000x1_S50000x200_0_1

/-- The term the reference's run states for a result, of that branch's arguments, is the branch. -/
theorem ref_branch (emb : FVec Ideal S50000x200 .f32) (e : IVec S2x800000 32) (ew : FVec Ideal S800000x1 .f32)
    (w : FVec Ideal S200x200 .f32) (b : FVec Ideal S200 .f32) :
    maximumf (addf (Host.dotGeneral dot_S50000x200_S200x200_S50000x200_1_0_0_1_n_n none (Host.scatterAdd scatter_S50000x200_S800000x1_S800000x200_1_0_0_1 (broadcastInDim S50000x200 ![] bcast_S_S50000x200 (constant S_ .f32 0x00000000#32)) (broadcastInDim S800000x1 ![0] bcast_S800000_S800000x1_0 (shapeCast _ (extractStridedSlice S1x800000 ![1, 0] e slices_S2x800000_S1x800000_1_0) shapeCasts_S1x800000_S800000)) (mulf (Host.gather gather_S50000x200_S800000x1_S800000x200_1_0_n_n_0_1_1200 (maximumf (addf (Host.dotGeneral dot_S50000x200_S200x200_S50000x200_1_0_0_1_n_n none (Host.scatterAdd scatter_S50000x200_S800000x1_S800000x200_1_0_0_1 (broadcastInDim S50000x200 ![] bcast_S_S50000x200 (constant S_ .f32 0x00000000#32)) (broadcastInDim S800000x1 ![0] bcast_S800000_S800000x1_0 (shapeCast _ (extractStridedSlice S1x800000 ![1, 0] e slices_S2x800000_S1x800000_1_0) shapeCasts_S1x800000_S800000)) (mulf (Host.gather gather_S50000x200_S800000x1_S800000x200_1_0_n_n_0_1_1200 (Host.divf emb (broadcastInDim S50000x200 ![0, 1] bcast_S50000x1_S50000x200_0_1 (maximumf (Host.sqrt (broadcastInDim S50000x1 ![0] bcast_S50000_S50000x1_0 (Host.reduceAdd (mulf emb emb) (constant S_ .f32 0x00000000#32) reducesTo_S50000x200_S50000_d1 h_S_))) (broadcastInDim S50000x1 ![] bcast_S_S50000x1 (constant S_ .f32 0x2B8CBCCC#32))))) (broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000)))) (broadcastInDim S800000x200 ![0, 1] bcast_S800000x1_S800000x200_0_1 ew))) w) (broadcastInDim S50000x200 ![0, 1] bcast_S1x200_S50000x200_0_1 (broadcastInDim S1x200 ![1] bcast_S200_S1x200_1 b))) (broadcastInDim S50000x200 ![] bcast_S_S50000x200 (constant S_ .f32 0x00000000#32))) (broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000)))) (broadcastInDim S800000x200 ![0, 1] bcast_S800000x1_S800000x200_0_1 ew))) w) (broadcastInDim S50000x200 ![0, 1] bcast_S1x200_S50000x200_0_1 (broadcastInDim S1x200 ![1] bcast_S200_S1x200_1 b))) (broadcastInDim S50000x200 ![] bcast_S_S50000x200 (constant S_ .f32 0x00000000#32))
      = branch emb e ew w b := by
  rw [ref_layer, ref_layer, ref_norm]
  rfl

end Cert.Gcn.RefValue

end
-- ==== Proof.lean ====
/-
  A two-layer graph network over two graphs that share one weight matrix: the kernel program against its reference,
  equal as extended reals.

  Each graph (a "branch") has an embedding table `[50000, 200]`, an edge list `[2, 800000]` and a weight per edge.
  A branch scales every row of its table to unit Euclidean length, the length floored at a small constant, and then
  applies two layers; a layer is one round of message passing over the edges (gather the source row of every edge,
  scale it by the edge's weight, add it into the target row), a product with the `[200, 200]` weight matrix, the
  bias added to every row, and the rectifier. The reference computes the two branches one after the other with host
  operations only. The kernel program stacks the two tables into one of `100000` rows and runs the row scaling and each
  dense layer as ONE kernel launch over the stack, 5000 rows per grid point, holding intermediate tables in a narrower
  float format; between launches it splits the stack, runs each branch's message passing on its half, and stacks again.

  On the extended reals a change of float format is the identity, a matrix product into a zero accumulator is the host's
  dot product, and a lane sum is the host's sum. What is left is that stacking commutes with everything done to the
  stack: scaling rows, a dense layer and the rectifier each compute a row of their result from the same row of their
  operand, so a launch over the stack leaves the two branches' results stacked, and the half a later slice takes is the
  branch's own result. Message passing is never opened: both programs apply the same host operations to tables that
  are equal, so it is carried as one function. No law used here needs the inputs to be finite.

  The three frames: the kernel programs' are the generated ones; the reference's is its generated run with the
  results dropped. The idealization rewrote nothing, so it preserves the program trivially.
-/
import proofs.«153074_j7610682048666_2_alg».proof.Defs
import proofs.«153074_j7610682048666_2_alg».proof.Proof.Gen.Kernel
import proofs.«153074_j7610682048666_2_alg».proof.Proof.Gen.Kernel.Skeleton
import proofs.«153074_j7610682048666_2_alg».proof.Proof.Gen.Kernel.Launch
import proofs.«153074_j7610682048666_2_alg».proof.Proof.Gen.Kernel.Points
import proofs.«153074_j7610682048666_2_alg».proof.Proof.Gen.Kernel.Frame
import proofs.«153074_j7610682048666_2_alg».proof.Proof.Gen.KernelIdeal
import proofs.«153074_j7610682048666_2_alg».proof.Proof.Gen.KernelIdeal.Skeleton
import proofs.«153074_j7610682048666_2_alg».proof.Proof.Gen.KernelIdeal.Launch
import proofs.«153074_j7610682048666_2_alg».proof.Proof.Gen.KernelIdeal.Points
import proofs.«153074_j7610682048666_2_alg».proof.Proof.Gen.KernelIdeal.Frame
import proofs.«153074_j7610682048666_2_alg».proof.Proof.Gen.ReferenceIdeal
import proofs.«153074_j7610682048666_2_alg».proof.Proof.Gen.Pre_finite_inputs
import proofs.«153074_j7610682048666_2_alg».proof.Proof.Gen.ReferenceIdeal.Run
import proofs.«153074_j7610682048666_2_alg».proof.Proof.KernelRun
import proofs.«153074_j7610682048666_2_alg».proof.Proof.KernelValue
import proofs.«153074_j7610682048666_2_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with each result at its branch of the network of the arguments: the kernel's by reading its
    boundary contents through the launches, the reference's by reading its run's term; the arguments agree. -/
theorem algebraic : Cert.algebraic_KernelIdeal_ReferenceIdeal := by
  intro m ρ m' ρ' _ hagree
  refine ⟨fun c => Cert.Gcn.branch (m ((c : Thread Cert.KernelIdeal.nD Cert.KernelIdeal.τ).loc Cert.KernelIdeal.main_arg0))
      (m ((c : Thread Cert.KernelIdeal.nD Cert.KernelIdeal.τ).loc Cert.KernelIdeal.main_arg4))
      (m ((c : Thread Cert.KernelIdeal.nD Cert.KernelIdeal.τ).loc Cert.KernelIdeal.main_arg6))
      (m ((c : Thread Cert.KernelIdeal.nD Cert.KernelIdeal.τ).loc Cert.KernelIdeal.main_arg2))
      (m ((c : Thread Cert.KernelIdeal.nD Cert.KernelIdeal.τ).loc Cert.KernelIdeal.main_arg3)),
    fun c => Cert.Gcn.branch (m ((c : Thread Cert.KernelIdeal.nD Cert.KernelIdeal.τ).loc Cert.KernelIdeal.main_arg1))
      (m ((c : Thread Cert.KernelIdeal.nD Cert.KernelIdeal.τ).loc Cert.KernelIdeal.main_arg5))
      (m ((c : Thread Cert.KernelIdeal.nD Cert.KernelIdeal.τ).loc Cert.KernelIdeal.main_arg7))
      (m ((c : Thread Cert.KernelIdeal.nD Cert.KernelIdeal.τ).loc Cert.KernelIdeal.main_arg2))
      (m ((c : Thread Cert.KernelIdeal.nD Cert.KernelIdeal.τ).loc Cert.KernelIdeal.main_arg3)), ?_, ?_⟩
  · exact (θ_run Cert.KernelIdeal.defs _ _).mono
      (fun r h c => ⟨(h c).1.trans (Cert.Gcn.KernelValue.result_lo m ρ c), (h c).2.1.trans (Cert.Gcn.KernelValue.result_hi m ρ c), (h c).2.2⟩)
      (Cert.Gcn.KernelRun.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, a2, a3, a4, a5, a6, a7⟩ := hagree c
      rw [a0, a2, a3, a4, a6]
      exact Cert.Gcn.RefValue.ref_branch _ _ _ _ _
    · obtain ⟨a0, a1, a2, a3, a4, a5, a6, a7⟩ := hagree c
      rw [a1, a2, a3, a5, a7]
      exact Cert.Gcn.RefValue.ref_branch _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
